-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x256 .f32) (main_arg1 : IVec S262144 32) (main_arg2 : IVec S262144 32) (main_arg3 : FVec F S256x256 .f32) (main_arg4 : FVec F S256 .f32) (main_arg5 : FVec F S256x128 .f32) (main_arg6 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S8192x256 : Shape := ⟨2, ![8192, 256]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S8192x128 : Shape := ⟨2, ![8192, 128]⟩
abbrev S1024x256 : Shape := ⟨2, ![1024, 256]⟩
abbrev S1024x128 : Shape := ⟨2, ![1024, 128]⟩
abbrev S_ : Shape := ⟨0, ![]⟩
abbrev S8192 : Shape := ⟨1, ![8192]⟩
abbrev S262144x1 : Shape := ⟨2, ![262144, 1]⟩
abbrev S8192x8192 : Shape := ⟨2, ![8192, 8192]⟩
abbrev S262144x2 : Shape := ⟨2, ![262144, 2]⟩
abbrev S8192x1 : Shape := ⟨2, ![8192, 1]⟩
abbrev S1x8192 : Shape := ⟨2, ![1, 8192]⟩
abbrev S1024x1024 : Shape := ⟨2, ![1024, 1024]⟩
abbrev S2048x128 : Shape := ⟨2, ![2048, 128]⟩
abbrev S2048x1024 : Shape := ⟨2, ![2048, 1024]⟩

abbrev nBuf : Space → Nat
  | .hbm => 83
  | .vmem => 42
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x256, .f32⟩
  | .hbm, ⟨8, _⟩ => ⟨S1x128, .f32⟩
  | .hbm, ⟨9, _⟩ => ⟨S8192x128, .f32⟩
  | .hbm, ⟨10, _⟩ => ⟨S_, .f32⟩
  | .hbm, ⟨11, _⟩ => ⟨S262144, .f32⟩
  | .hbm, ⟨12, _⟩ => ⟨S_, .f32⟩
  | .hbm, ⟨13, _⟩ => ⟨S8192, .f32⟩
  | .hbm, ⟨14, _⟩ => ⟨S262144x1, .i32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192x8192, .f32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x1, .i32⟩
  | .hbm, ⟨40, _⟩ => ⟨S262144x2, .i32⟩
  | .hbm, ⟨41, _⟩ => ⟨S_, .f32⟩
  | .hbm, ⟨42, _⟩ => ⟨S262144, .f32⟩
  | .hbm, ⟨43, _⟩ => ⟨S8192x8192, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S1x8192, .f32⟩
  | .hbm, ⟨48, _⟩ => ⟨S8192x8192, .f32⟩
  | .hbm, ⟨49, _⟩ => ⟨S8192x8192, .f32⟩
  | .hbm, ⟨50, _⟩ => ⟨S8192x8192, .i32⟩
  | .hbm, ⟨51, _⟩ => ⟨S8192x8192, .i32⟩
  | .hbm, ⟨52, _⟩ => ⟨S_, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S8192x8192, .f32⟩
  | .hbm, ⟨57, _⟩ => ⟨S8192x8192, .f32⟩
  | .hbm, ⟨58, _⟩ => ⟨S8192x8192, .bf16⟩
  | .hbm, ⟨59, _⟩ => ⟨S_, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S_, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S_, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S_, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .bf16⟩
  | .local _ .vmem, ⟨23, _⟩ => ⟨S1024x1024, .bf16⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x1024, .bf16⟩
  | .local _ .vmem, ⟨30, _⟩ => ⟨S1024x1024, .bf16⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S2048x128, .f32⟩
  | .local _ .vmem, ⟨37, _⟩ => ⟨S2048x128, .f32⟩
  | .local _ .vmem, ⟨38, _⟩ => ⟨S1024x128, .f32⟩
  | .local _ .vmem, ⟨39, _⟩ => ⟨S1024x128, .f32⟩
  | .local _ .vmem, ⟨40, _⟩ => ⟨S2048x1024, .f32⟩
  | .local _ .vmem, ⟨41, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  shapeCasts_S256_S1x256 : S256.ShapeCasts S1x256
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S_S8192x8192 : S_.BroadcastsInDim S8192x8192 (![] : Fin 0 → Fin S8192x8192.rank)
  concatenates_S262144x1_S262144x1_S262144x2_d1 : Shape.Concatenates [S262144x1, S262144x1] S262144x2 1
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x128 : S_.BroadcastsInDim S8192x128 (![] : Fin 0 → Fin S8192x128.rank)
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  scatter_S8192_S262144x1_S262144_n_0_0_1_wf : ScatterDims.WF S8192 S262144x1 S262144 [] [0] [0] 1
  scatter_S8192x8192_S262144x2_S262144_n_01_01_1_wf : ScatterDims.WF S8192x8192 S262144x2 S262144 [] [0, 1] [0, 1] 1
  dot_S1024x1024_S1024x128_S1024x128_1_0_0_1_n_n_wf : DotDims.WF S1024x1024 S1024x128 S1024x128 [1] [0] [0] [1] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .bf16 = 32 ∨ (Rect.block (s := S8192x8192) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .f32 = 32 ∨ (Rect.block (s := S8192x128) S1024x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .bf16 = 32 ∨ (Rect.block (s := S8192x8192) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S8192x128.size a
  hwx4_1 : ∀ i : grid4.Coords, EltTy.bits .f32 = 32 ∨ (Rect.block (s := S8192x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S8192x128.size a
  hwx5_0 : ∀ i : grid5.Coords, EltTy.bits .f32 = 32 ∨ (Rect.block (s := S8192x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S8192x128.size a
  hwx5_1 : ∀ i : grid5.Coords, EltTy.bits .f32 = 32 ∨ (Rect.block (s := S8192x128) S1024x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1024.size a ≤ S8192x8192.size a
  hwx5_2 : ∀ i : grid5.Coords, EltTy.bits .f32 = 32 ∨ (Rect.block (s := S8192x8192) S2048x1024.size (cc5_transform_2 i) (hinb5_2 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v40) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v40) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v40) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v58) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S2048x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S8192x256 : Shape := ⟨2, ![8192, 256]⟩
abbrev S262144 : Shape := ⟨1, ![262144]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S1x256 : Shape := ⟨2, ![1, 256]⟩
abbrev S8192x128 : Shape := ⟨2, ![8192, 128]⟩
abbrev S1x128 : Shape := ⟨2, ![1, 128]⟩
abbrev S262144x128 : Shape := ⟨2, ![262144, 128]⟩
abbrev S128x8192 : Shape := ⟨2, ![128, 8192]⟩
abbrev S8192x8192 : Shape := ⟨2, ![8192, 8192]⟩

abbrev nBuf : Space → Nat
  | .hbm => 127
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S262144x128, .f32⟩
  | .hbm, ⟨48, _⟩ => ⟨S_, .f32⟩
  | .hbm, ⟨49, _⟩ => ⟨S8192x128, .f32⟩
  | .hbm, ⟨50, _⟩ => ⟨S262144x1, .i32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S262144x128, .f32⟩
  | .hbm, ⟨70, _⟩ => ⟨S_, .f32⟩
  | .hbm, ⟨71, _⟩ => ⟨S8192x128, .f32⟩
  | .hbm, ⟨72, _⟩ => ⟨S262144x1, .i32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S_, .f32⟩
  | .hbm, ⟨78, _⟩ => ⟨S8192x128, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S8192x128, .f32⟩
  | .hbm, ⟨83, _⟩ => ⟨S_, .i32⟩
  | .hbm, ⟨84, _⟩ => ⟨S262144, .i32⟩
  | .hbm, ⟨85, _⟩ => ⟨S262144, .i1⟩
  | .hbm, ⟨86, _⟩ => ⟨S_, .i32⟩
  | .hbm, ⟨87, _⟩ => ⟨S262144, .i32⟩
  | .hbm, ⟨88, _⟩ => ⟨S262144, .i32⟩
  | .hbm, ⟨89, _⟩ => ⟨S262144, .i32⟩
  | .hbm, ⟨90, _⟩ => ⟨S262144x1, .i32⟩
  | .hbm, ⟨91, _⟩ => ⟨S262144x128, .f32⟩
  | .hbm, ⟨92, _⟩ => ⟨S_, .f32⟩
  | .hbm, ⟨93, _⟩ => ⟨S8192x128, .f32⟩
  | .hbm, ⟨94, _⟩ => ⟨S262144x1, .i32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S8192x128, .f32⟩
  | .hbm, ⟨99, _⟩ => ⟨S_, .f32⟩
  | .hbm, ⟨100, _⟩ => ⟨S8192x128, .f32⟩
  | .hbm, ⟨101, _⟩ => ⟨S8192x128, .f32⟩
  | .hbm, ⟨102, _⟩ => ⟨S8192x128, .f32⟩
  | .hbm, ⟨103, _⟩ => ⟨S8192x128, .f32⟩
  | .hbm, ⟨104, _⟩ => ⟨S8192x128, .f32⟩
  | .hbm, ⟨105, _⟩ => ⟨S_, .i32⟩
  | .hbm, ⟨106, _⟩ => ⟨S262144, .i32⟩
  | .hbm, ⟨107, _⟩ => ⟨S262144, .i1⟩
  | .hbm, ⟨108, _⟩ => ⟨S_, .i32⟩
  | .hbm, ⟨109, _⟩ => ⟨S262144, .i32⟩
  | .hbm, ⟨110, _⟩ => ⟨S262144, .i32⟩
  | .hbm, ⟨111, _⟩ => ⟨S262144, .i32⟩
  | .hbm, ⟨112, _⟩ => ⟨S262144x1, .i32⟩
  | .hbm, ⟨113, _⟩ => ⟨S262144x128, .f32⟩
  | .hbm, ⟨114, _⟩ => ⟨S_, .f32⟩
  | .hbm, ⟨115, _⟩ => ⟨S8192x128, .f32⟩
  | .hbm, ⟨116, _⟩ => ⟨S262144x1, .i32⟩
  | .hbm, ⟨117, _⟩ => ⟨S8192x128, .f32⟩
  | .hbm, ⟨118, _⟩ => ⟨S8192x128, .f32⟩
  | .hbm, ⟨119, _⟩ => ⟨S8192x128, .f32⟩
  | .hbm, ⟨120, _⟩ => ⟨S8192x128, .f32⟩
  | .hbm, ⟨121, _⟩ => ⟨S_, .f32⟩
  | .hbm, ⟨122, _⟩ => ⟨S8192x128, .f32⟩
  | .hbm, ⟨123, _⟩ => ⟨S8192x128, .f32⟩
  | .hbm, ⟨124, _⟩ => ⟨S8192x128, .f32⟩
  | .hbm, ⟨125, _⟩ => ⟨S128x8192, .f32⟩
  | .hbm, ⟨126, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_15 : Ref sig .tc := ⟨.hbm, 105, rfl⟩
abbrev main_v77 : Ref sig .tc := ⟨.hbm, 106, rfl⟩
abbrev main_v78 : Ref sig .tc := ⟨.hbm, 107, rfl⟩
abbrev main_c_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  transposes_S8192x128_S128x8192_1_0 : S8192x128.Transposes [1, 0] S128x8192
  scatter_S8192_S262144x1_S262144_n_0_0_1_wf : ScatterDims.WF S8192 S262144x1 S262144 [] [0] [0] 1
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Mlp.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder region (the first kernel launch): two dense layers with rectifiers on a block of 1024 rows.

Stated at a parameter `V`, the buffer contents the region is entered with. The body reads its five input blocks
whole, computes `max (max (x · W1 + b1) 0 · W2 + b2) 0` and stores it whole into the output block. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev r0_out : Rect S1024x128 := Rect.unit (s := S1024x128) ![0, 0] S1024x128.size inb_S1024x128_S1024x128_0_0

/-- The output block after the body, from the five input blocks: one store of the whole block. -/
def out0_5 (x0 : Vec F S1024x256 .f32) (x1 : Vec F S256x256 .f32) (x2 : Vec F S1x256 .f32) (x3 : Vec F S256x128 .f32) (x4 : Vec F S1x128 .f32) : Vec F S1024x128 .f32 :=
  View.canon [⟨r0_out, k0_pay1 (View.ld x0 (Rect.unit (s := S1024x256) ![0, 0] S1024x256.size inb_S1024x256_S1024x256_0_0))
    (View.ld x1 (Rect.unit (s := S256x256) ![0, 0] S256x256.size inb_S256x256_S256x256_0_0))
    (View.ld x2 (Rect.unit (s := S1x256) ![0, 0] S1x256.size inb_S1x256_S1x256_0_0))
    (View.ld x3 (Rect.unit (s := S256x128) ![0, 0] S256x128.size inb_S256x128_S256x128_0_0))
    (View.ld x4 (Rect.unit (s := S1x128) ![0, 0] S1x128.size inb_S1x128_S1x128_0_0))⟩]

/-- The one store covers the block. -/
theorem cover0_5 (p0 : Vec F S1024x128 .f32) (y : S1024x128.Idx) :
    ∃ pc ∈ ([⟨r0_out, p0⟩] : List (View.Piece (Elt F) S1024x128 .f32)), y ∈ pc.1.set :=
  View.cover_of_tiled [⟨r0_out, p0⟩] S1024x128.size (by rfl) y

set_option maxHeartbeats 4000000 in
/-- The body on whole staging buffers: the inputs are kept, the output ends at `out0_5` of the inputs. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1024x128 .f32) (harg6 : arg6.IsWhole)
    (x0 : Vec F S1024x256 .f32) (x1 : Vec F S256x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of the encoder's pipeline on core `c`: the arrays as the region finds them; after the body each
    input's buffer at its block and the output's at `out0_5` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Lap1Run.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 1: a block product accumulated over the second grid axis in a scratch buffer,
reset at its first point and copied to the output block at its last. Stated at the entry contents `V`. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's first branch: the point is the first along the reduction axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second branch: the point is the last along the reduction axis. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S1024x128 .f32 := (Memref.whole cc1_stg2_0 : Memref sig .tc .vmem S1024x128 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x128 .f32 := Memref.whole cc1_scratch0
abbrev VS1_0 : View sig .tc .vmem S1024x128 .f32 := scM1_0.view

/-- The class invariant with the accumulator split out, owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's run, case by case -/

set_option maxHeartbeats 4000000 in
/-- First point of a row of blocks: the accumulator is reset, then the block product added; the output block untouched. -/
noncomputable def kernelRun1_A (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lap_matmul_kernel i arg2 harg2 arg3 harg3 arg4 harg4 arg5 harg5) K } := by
  refine ⟨[], ?_, fun xi2 E K => ?run⟩
  case run =>
    simp only [cc1__lap_matmul_kernel_eq_skeleton]; unfold cc1__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun1_B (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lap_matmul_kernel i arg2 harg2 arg3 harg3 arg4 harg4 arg5 harg5) K } := by
  refine ⟨[], ?_, fun xi2 E K => ?run⟩
  case run =>
    simp only [cc1__lap_matmul_kernel_eq_skeleton]; unfold cc1__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun1_C (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__lap_matmul_kernel i arg2 harg2 arg3 harg3 arg4 harg4 arg5 harg5) K } := by
  refine ⟨?_, ?_, fun E K => ?run⟩
  case run =>
    simp only [cc1__lap_matmul_kernel_eq_skeleton]; unfold cc1__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region1

end Cert.Kernel.Hand

end
-- ==== Proof.K.Lap1.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Lap1Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1F
variable (V : (c : Dev nD) → (b : Ref sig .tc) → Buf (Elt F) ((c : Thread nD τ).loc b))

/-- Case A: what the output block's buffer holds afterwards, as the stored pieces read back (none: a placeholder nothing consults). -/
def out1_A_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) : Vec F S1024x128 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- What case A leaves in the accumulator. -/
def sout1_A_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) : Vec F S1024x128 .f32 :=
  VS1_0.read (Elt F) (VS1_0.writes (Elt F) VS1_0.junk (kernelRun1_A c i arg2 harg2 arg3 harg3 arg4 harg4 arg5 harg5 hc0 hc1 x0 x1).2.1)

/-- Case B: what the output block's buffer holds afterwards, as the stored pieces read back (none: a placeholder nothing consults). -/
def out1_B_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) : Vec F S1024x128 .f32 :=
  VO1_2.read (Elt F) (VO1_2.writes (Elt F) VO1_2.junk (kernelRun1_B c i arg2 harg2 arg3 harg3 arg4 harg4 arg5 harg5 hc0 hc1 x0 x1 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- What case B leaves in the accumulator. -/
def sout1_B_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

/-- Case C: what the output block's buffer holds afterwards, as the stored pieces read back. -/
def out1_C_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

theorem cover1_C_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- Case C's stores into the accumulator cover it. -/
theorem scover1_C_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- What case C leaves in the accumulator. -/
def sout1_C_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt1 (c : Dev nD) : (n : ℕ) → n < cfg1.N → Vec F S1024x128 .f32 × Vec F S1024x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this step's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the position's case decides which run applies; the invariant hands the body the accumulator at
    what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ )
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ )
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Region1F

end Cert.Kernel.Hand

end
-- ==== Proof.K.Lap2Run.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 2: a block product accumulated over the second grid axis in a scratch buffer,
reset at its first point and copied to the output block at its last. Stated at the entry contents `V`. -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's first branch: the point is the first along the reduction axis. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The body's second branch: the point is the last along the reduction axis. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-- One staging buffer of the output window, through which its contents are stated. -/
abbrev VO2_2 : View sig .tc .vmem S1024x128 .f32 := (Memref.whole cc2_stg2_0 : Memref sig .tc .vmem S1024x128 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x128 .f32 := Memref.whole cc2_scratch0
abbrev VS2_0 : View sig .tc .vmem S1024x128 .f32 := scM2_0.view

/-- The class invariant with the accumulator split out, owned at some contents. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's run, case by case -/

set_option maxHeartbeats 4000000 in
/-- First point of a row of blocks: the accumulator is reset, then the block product added; the output block untouched. -/
noncomputable def kernelRun2_A (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lap_matmul_kernel i arg2 harg2 arg3 harg3 arg4 harg4 arg5 harg5) K } := by
  refine ⟨[], ?_, fun xi2 E K => ?run⟩
  case run =>
    simp only [cc2__lap_matmul_kernel_eq_skeleton]; unfold cc2__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun2_B (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lap_matmul_kernel i arg2 harg2 arg3 harg3 arg4 harg4 arg5 harg5) K } := by
  refine ⟨[], ?_, fun xi2 E K => ?run⟩
  case run =>
    simp only [cc2__lap_matmul_kernel_eq_skeleton]; unfold cc2__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun2_C (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__lap_matmul_kernel i arg2 harg2 arg3 harg3 arg4 harg4 arg5 harg5) K } := by
  refine ⟨?_, ?_, fun E K => ?run⟩
  case run =>
    simp only [cc2__lap_matmul_kernel_eq_skeleton]; unfold cc2__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region2

end Cert.Kernel.Hand

end
-- ==== Proof.K.Lap2.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Lap2Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2F
variable (V : (c : Dev nD) → (b : Ref sig .tc) → Buf (Elt F) ((c : Thread nD τ).loc b))

/-- Case A: what the output block's buffer holds afterwards, as the stored pieces read back (none: a placeholder nothing consults). -/
def out2_A_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) : Vec F S1024x128 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) (y : S1024x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x128.size (by sl_kernel_rfl) y

/-- What case A leaves in the accumulator. -/
def sout2_A_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) : Vec F S1024x128 .f32 :=
  VS2_0.read (Elt F) (VS2_0.writes (Elt F) VS2_0.junk (kernelRun2_A c i arg2 harg2 arg3 harg3 arg4 harg4 arg5 harg5 hc0 hc1 x0 x1).2.1)

/-- Case B: what the output block's buffer holds afterwards, as the stored pieces read back (none: a placeholder nothing consults). -/
def out2_B_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) : Vec F S1024x128 .f32 :=
  VO2_2.read (Elt F) (VO2_2.writes (Elt F) VO2_2.junk (kernelRun2_B c i arg2 harg2 arg3 harg3 arg4 harg4 arg5 harg5 hc0 hc1 x0 x1 xs0).1)

/-- Case B's stores into the accumulator cover it. -/
theorem scover2_B_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) (y : S1024x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x128.size (by sl_kernel_rfl) y

/-- What case B leaves in the accumulator. -/
def sout2_B_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 hc0 hc1 x0 x1 xs0).2.1)

/-- Case C: what the output block's buffer holds afterwards, as the stored pieces read back. -/
def out2_C_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) : Vec F S1024x128 .f32 :=
  VO2_2.read (Elt F) (VO2_2.writes (Elt F) VO2_2.junk (kernelRun2_C c i arg2 harg2 arg3 harg3 arg4 harg4 arg5 harg5 hc0 hc1 x0 x1 xs0).1)

theorem cover2_C_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) (y : S1024x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x128.size (by sl_kernel_rfl) y

/-- Case C's stores into the accumulator cover it. -/
theorem scover2_C_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) (y : S1024x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x128.size (by sl_kernel_rfl) y

/-- What case C leaves in the accumulator. -/
def sout2_C_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt2 (c : Dev nD) : (n : ℕ) → n < cfg2.N → Vec F S1024x128 .f32 × Vec F S1024x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this step's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the position's case decides which run applies; the invariant hands the body the accumulator at
    what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ )
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ )
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ )
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, HR⟩, Hg⟩
  isplitl [HS0 HR]
  · isplitl [HS0]
    · iexists _; iexact HS0
    iexact HR
  iexact Hg

end Region2F

end Cert.Kernel.Hand

end
-- ==== Proof.K.Lap3Run.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 3: a block product accumulated over the second grid axis in a scratch buffer,
reset at its first point and copied to the output block at its last. Stated at the entry contents `V`. -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body's first branch: the point is the first along the reduction axis. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The body's second branch: the point is the last along the reduction axis. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-- One staging buffer of the output window, through which its contents are stated. -/
abbrev VO3_2 : View sig .tc .vmem S1024x128 .f32 := (Memref.whole cc3_stg2_0 : Memref sig .tc .vmem S1024x128 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S1024x128 .f32 := Memref.whole cc3_scratch0
abbrev VS3_0 : View sig .tc .vmem S1024x128 .f32 := scM3_0.view

/-- The class invariant with the accumulator split out, owned at some contents. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's run, case by case -/

set_option maxHeartbeats 4000000 in
/-- First point of a row of blocks: the accumulator is reset, then the block product added; the output block untouched. -/
noncomputable def kernelRun3_A (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__lap_matmul_kernel i arg2 harg2 arg3 harg3 arg4 harg4 arg5 harg5) K } := by
  refine ⟨[], ?_, fun xi2 E K => ?run⟩
  case run =>
    simp only [cc3__lap_matmul_kernel_eq_skeleton]; unfold cc3__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun3_B (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__lap_matmul_kernel i arg2 harg2 arg3 harg3 arg4 harg4 arg5 harg5) K } := by
  refine ⟨[], ?_, fun xi2 E K => ?run⟩
  case run =>
    simp only [cc3__lap_matmul_kernel_eq_skeleton]; unfold cc3__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun3_C (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__lap_matmul_kernel i arg2 harg2 arg3 harg3 arg4 harg4 arg5 harg5) K } := by
  refine ⟨?_, ?_, fun E K => ?run⟩
  case run =>
    simp only [cc3__lap_matmul_kernel_eq_skeleton]; unfold cc3__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region3

end Cert.Kernel.Hand

end
-- ==== Proof.K.Lap3.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Lap3Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3F
variable (V : (c : Dev nD) → (b : Ref sig .tc) → Buf (Elt F) ((c : Thread nD τ).loc b))

/-- Case A: what the output block's buffer holds afterwards, as the stored pieces read back (none: a placeholder nothing consults). -/
def out3_A_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) : Vec F S1024x128 .f32 :=
  VO3_2.read (Elt F) (VO3_2.writes (Elt F) VO3_2.junk (kernelRun3_A c i arg2 harg2 arg3 harg3 arg4 harg4 arg5 harg5 hc0 hc1 x0 x1).1)

/-- Case A's stores into the accumulator cover it. -/
theorem scover3_A_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) (y : S1024x128.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x128.size (by sl_kernel_rfl) y

/-- What case A leaves in the accumulator. -/
def sout3_A_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) : Vec F S1024x128 .f32 :=
  VS3_0.read (Elt F) (VS3_0.writes (Elt F) VS3_0.junk (kernelRun3_A c i arg2 harg2 arg3 harg3 arg4 harg4 arg5 harg5 hc0 hc1 x0 x1).2.1)

/-- Case B: what the output block's buffer holds afterwards, as the stored pieces read back (none: a placeholder nothing consults). -/
def out3_B_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) : Vec F S1024x128 .f32 :=
  VO3_2.read (Elt F) (VO3_2.writes (Elt F) VO3_2.junk (kernelRun3_B c i arg2 harg2 arg3 harg3 arg4 harg4 arg5 harg5 hc0 hc1 x0 x1 xs0).1)

/-- Case B's stores into the accumulator cover it. -/
theorem scover3_B_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) (y : S1024x128.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x128.size (by sl_kernel_rfl) y

/-- What case B leaves in the accumulator. -/
def sout3_B_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) : Vec F S1024x128 .f32 :=
  VS3_0.read (Elt F) (VS3_0.writes (Elt F) VS3_0.junk (kernelRun3_B c i arg2 harg2 arg3 harg3 arg4 harg4 arg5 harg5 hc0 hc1 x0 x1 xs0).2.1)

/-- Case C: what the output block's buffer holds afterwards, as the stored pieces read back. -/
def out3_C_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) : Vec F S1024x128 .f32 :=
  VO3_2.read (Elt F) (VO3_2.writes (Elt F) VO3_2.junk (kernelRun3_C c i arg2 harg2 arg3 harg3 arg4 harg4 arg5 harg5 hc0 hc1 x0 x1 xs0).1)

theorem cover3_C_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) (y : S1024x128.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x128.size (by sl_kernel_rfl) y

/-- Case C's stores into the accumulator cover it. -/
theorem scover3_C_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) (y : S1024x128.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x128.size (by sl_kernel_rfl) y

/-- What case C leaves in the accumulator. -/
def sout3_C_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) : Vec F S1024x128 .f32 :=
  VS3_0.read (Elt F) (VS3_0.writes (Elt F) VS3_0.junk (kernelRun3_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt3 (c : Dev nD) : (n : ℕ) → n < cfg3.N → Vec F S1024x128 .f32 × Vec F S1024x128 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of this step's pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point: the position's case decides which run applies; the invariant hands the body the accumulator at
    what the point before left (at anything at the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ )
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _ )
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ )
          iexact HR
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HR⟩, Hg⟩
  isplitl [HS0 HR]
  · isplitl [HS0]
    · iexists _; iexact HS0
    iexact HR
  iexact Hg

end Region3F

end Cert.Kernel.Hand

end
-- ==== Proof.K.Lap4Run.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 4: a block product accumulated over the second grid axis in a scratch buffer,
reset at its first point and copied to the output block at its last. Stated at the entry contents `V`. -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's first branch: the point is the first along the reduction axis. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- The body's second branch: the point is the last along the reduction axis. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-- One staging buffer of the output window, through which its contents are stated. -/
abbrev VO4_2 : View sig .tc .vmem S1024x128 .f32 := (Memref.whole cc4_stg2_0 : Memref sig .tc .vmem S1024x128 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S1024x128 .f32 := Memref.whole cc4_scratch0
abbrev VS4_0 : View sig .tc .vmem S1024x128 .f32 := scM4_0.view

/-- The class invariant with the accumulator split out, owned at some contents. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's run, case by case -/

set_option maxHeartbeats 4000000 in
/-- First point of a row of blocks: the accumulator is reset, then the block product added; the output block untouched. -/
noncomputable def kernelRun4_A (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__lap_matmul_kernel i arg2 harg2 arg3 harg3 arg4 harg4 arg5 harg5) K } := by
  refine ⟨[], ?_, fun xi2 E K => ?run⟩
  case run =>
    simp only [cc4__lap_matmul_kernel_eq_skeleton]; unfold cc4__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun4_B (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__lap_matmul_kernel i arg2 harg2 arg3 harg3 arg4 harg4 arg5 harg5) K } := by
  refine ⟨[], ?_, fun xi2 E K => ?run⟩
  case run =>
    simp only [cc4__lap_matmul_kernel_eq_skeleton]; unfold cc4__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun4_C (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__lap_matmul_kernel i arg2 harg2 arg3 harg3 arg4 harg4 arg5 harg5) K } := by
  refine ⟨?_, ?_, fun E K => ?run⟩
  case run =>
    simp only [cc4__lap_matmul_kernel_eq_skeleton]; unfold cc4__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region4

end Cert.Kernel.Hand

end
-- ==== Proof.K.Lap4.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Lap4Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4F
variable (V : (c : Dev nD) → (b : Ref sig .tc) → Buf (Elt F) ((c : Thread nD τ).loc b))

/-- Case A: what the output block's buffer holds afterwards, as the stored pieces read back (none: a placeholder nothing consults). -/
def out4_A_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) : Vec F S1024x128 .f32 :=
  VO4_2.read (Elt F) (VO4_2.writes (Elt F) VO4_2.junk (kernelRun4_A c i arg2 harg2 arg3 harg3 arg4 harg4 arg5 harg5 hc0 hc1 x0 x1).1)

/-- Case A's stores into the accumulator cover it. -/
theorem scover4_A_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) (y : S1024x128.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x128.size (by sl_kernel_rfl) y

/-- What case A leaves in the accumulator. -/
def sout4_A_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) : Vec F S1024x128 .f32 :=
  VS4_0.read (Elt F) (VS4_0.writes (Elt F) VS4_0.junk (kernelRun4_A c i arg2 harg2 arg3 harg3 arg4 harg4 arg5 harg5 hc0 hc1 x0 x1).2.1)

/-- Case B: what the output block's buffer holds afterwards, as the stored pieces read back (none: a placeholder nothing consults). -/
def out4_B_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) : Vec F S1024x128 .f32 :=
  VO4_2.read (Elt F) (VO4_2.writes (Elt F) VO4_2.junk (kernelRun4_B c i arg2 harg2 arg3 harg3 arg4 harg4 arg5 harg5 hc0 hc1 x0 x1 xs0).1)

/-- Case B's stores into the accumulator cover it. -/
theorem scover4_B_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) (y : S1024x128.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x128.size (by sl_kernel_rfl) y

/-- What case B leaves in the accumulator. -/
def sout4_B_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) : Vec F S1024x128 .f32 :=
  VS4_0.read (Elt F) (VS4_0.writes (Elt F) VS4_0.junk (kernelRun4_B c i arg2 harg2 arg3 harg3 arg4 harg4 arg5 harg5 hc0 hc1 x0 x1 xs0).2.1)

/-- Case C: what the output block's buffer holds afterwards, as the stored pieces read back. -/
def out4_C_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) : Vec F S1024x128 .f32 :=
  VO4_2.read (Elt F) (VO4_2.writes (Elt F) VO4_2.junk (kernelRun4_C c i arg2 harg2 arg3 harg3 arg4 harg4 arg5 harg5 hc0 hc1 x0 x1 xs0).1)

theorem cover4_C_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) (y : S1024x128.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x128.size (by sl_kernel_rfl) y

/-- Case C's stores into the accumulator cover it. -/
theorem scover4_C_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) (y : S1024x128.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x128.size (by sl_kernel_rfl) y

/-- What case C leaves in the accumulator. -/
def sout4_C_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) : Vec F S1024x128 .f32 :=
  VS4_0.read (Elt F) (VS4_0.writes (Elt F) VS4_0.junk (kernelRun4_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt4 (c : Dev nD) : (n : ℕ) → n < cfg4.N → Vec F S1024x128 .f32 × Vec F S1024x128 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of this step's pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
/-- The body at any point: the position's case decides which run applies; the invariant hands the body the accumulator at
    what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  by_cases h0 : t.val % 8 = 0
  · by_cases h1 : t.val % 8 = 7
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ )
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _ )
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ )
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 64 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, HR⟩, Hg⟩
  isplitl [HS0 HR]
  · isplitl [HS0]
    · iexists _; iexact HS0
    iexact HR
  iexact Hg

end Region4F

end Cert.Kernel.Hand

end
-- ==== Proof.K.Aat.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The similarity region (the last kernel launch): a block of 2048 rows against a block of 1024 rows of ONE array,
each output block the products of rows, `out (r, s) = Σ d, a (r, d) · b (s, d)`. Stated at the entry contents `V`.
Both input windows read the same array, so each holds half of it. -/

section Region5
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_out : Rect S2048x1024 := Rect.unit (s := S2048x1024) ![0, 0] S2048x1024.size inb_S2048x1024_S2048x1024_0_0

/-- The output block after the body, from the two input blocks: one store of the whole block. -/
def out5_2 (x0 : Vec F S2048x128 .f32) (x1 : Vec F S1024x128 .f32) : Vec F S2048x1024 .f32 :=
  View.canon [⟨r5_out, k5_pay1 (View.ld x0 (Rect.unit (s := S2048x128) ![0, 0] S2048x128.size inb_S2048x128_S2048x128_0_0))
    (View.ld x1 (Rect.unit (s := S1024x128) ![0, 0] S1024x128.size inb_S1024x128_S1024x128_0_0))⟩]

theorem cover5_2 (p0 : Vec F S2048x1024 .f32) (y : S2048x1024.Idx) :
    ∃ pc ∈ ([⟨r5_out, p0⟩] : List (View.Piece (Elt F) S2048x1024 .f32)), y ∈ pc.1.set :=
  View.cover_of_tiled [⟨r5_out, p0⟩] S2048x1024.size (by rfl) y

set_option maxHeartbeats 4000000 in
theorem sound_kernel5 (c : Dev nD) (E : Set ℕ) (i : grid5.Coords)
    (arg2 : Memref sig .tc .vmem S2048x128 .f32) (harg2 : arg2.IsWhole) (arg3 : Memref sig .tc .vmem S1024x128 .f32) (harg3 : arg3.IsWhole)
    (arg4 : Memref sig .tc .vmem S2048x1024 .f32) (harg4 : arg4.IsWhole)
    (x0 : Vec F S2048x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out5_2 x0 x1)) -∗ K ⟨⟩))
      ⊢ wp frame (wpE (defs₀ (F := F)) Variants.none c none) E (cc5__aat_kernel i arg2 harg2 arg3 harg3 arg4 harg4) K := by
  simp only [cc5__aat_kernel_eq_skeleton]; unfold cc5__aat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the similarity pipeline on core `c`; the two input windows each hold half of their one array. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.Fold.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Mlp
import proofs.«146826_j214748365383_2_alg».proof.Proof.K.Lap1
import proofs.«146826_j214748365383_2_alg».proof.Proof.K.Lap2
import proofs.«146826_j214748365383_2_alg».proof.Proof.K.Lap3
import proofs.«146826_j214748365383_2_alg».proof.Proof.K.Lap4
import proofs.«146826_j214748365383_2_alg».proof.Proof.K.Aat
import proofs.«146826_j214748365383_2_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents from the launch to the return

`Wj c` is what core `c`'s unscoped buffers hold after the first `j` items of the program (host stretches and kernel
regions alternate, six of each): a host stretch applies its operations; a region leaves its arrays at what its
write-backs fold to and every other buffer as it was. `Ej` is `Wj` read at the TensorCore's references. -/

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev E1 : (c : Dev nD) → (b : Ref sig .tc) → Buf (Elt F) ((c : Thread nD τ).loc b) := fun c b => W1 m c b
theorem W1_of (c : Dev nD) (r : Ref sig .tc) (h : r ∉ (hostOps0_W : List (Ref sig .tc))) : W1 m c r = W0 m c r :=
  StableHlo.after_of_writes_sub hostOps0 _ hostOps0_writes h

def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev E3 : (c : Dev nD) → (b : Ref sig .tc) → Buf (Elt F) ((c : Thread nD τ).loc b) := fun c b => W3 m c b
theorem W3_of (c : Dev nD) (r : Ref sig .tc) (h : r ∉ (hostOps1_W : List (Ref sig .tc))) : W3 m c r = W2 m c r :=
  StableHlo.after_of_writes_sub hostOps1 _ hostOps1_writes h

def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev E5 : (c : Dev nD) → (b : Ref sig .tc) → Buf (Elt F) ((c : Thread nD τ).loc b) := fun c b => W5 m c b
theorem W5_of (c : Dev nD) (r : Ref sig .tc) (h : r ∉ (hostOps2_W : List (Ref sig .tc))) : W5 m c r = W4 m c r :=
  StableHlo.after_of_writes_sub hostOps2 _ hostOps2_writes h

def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev E7 : (c : Dev nD) → (b : Ref sig .tc) → Buf (Elt F) ((c : Thread nD τ).loc b) := fun c b => W7 m c b
theorem W7_of (c : Dev nD) (r : Ref sig .tc) (h : r ∉ (hostOps3_W : List (Ref sig .tc))) : W7 m c r = W6 m c r :=
  StableHlo.after_of_writes_sub hostOps3 _ hostOps3_writes h

def W8 (c : Dev nD) : Valuation τ sig (Elt F) :=
  Pipeline.withArrays spec3 c (W7 m c) fun w => (dat3 (E7 m) c).arrAt w cfg3.N
theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev E8 : (c : Dev nD) → (b : Ref sig .tc) → Buf (Elt F) ((c : Thread nD τ).loc b) := fun c b => W8 m c b
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)

abbrev W9 : Dev nD → Valuation τ sig (Elt F) := fun c => StableHlo.after hostOps4 (W8 m c)
abbrev E9 : (c : Dev nD) → (b : Ref sig .tc) → Buf (Elt F) ((c : Thread nD τ).loc b) := fun c b => W9 m c b
theorem W9_of (c : Dev nD) (r : Ref sig .tc) (h : r ∉ (hostOps4_W : List (Ref sig .tc))) : W9 m c r = W8 m c r :=
  StableHlo.after_of_writes_sub hostOps4 _ hostOps4_writes h

def W10 (c : Dev nD) : Valuation τ sig (Elt F) :=
  Pipeline.withArrays spec4 c (W9 m c) fun w => (dat4 (E9 m) c).arrAt w cfg4.N
theorem W10_arr (c : Dev nD) (w : Fin cfg4.W) :
    W10 m c (Proc.devRef .tc (Pipeline.arrRef spec4 w)) = (dat4 (E9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev E10 : (c : Dev nD) → (b : Ref sig .tc) → Buf (Elt F) ((c : Thread nD τ).loc b) := fun c b => W10 m c b
theorem hF4 (c : Dev nD) (w : Fin cfg4.W) : (dat4 (E9 m) c).arrAt w cfg4.N = E10 m c (Pipeline.arrRef spec4 w) :=
  (W10_arr m c w).symm
theorem hrest4 (c : Dev nD) : ∀ b, b ∉ Finset.univ.image (Pipeline.arrRef spec4) → E10 m c b = E9 m c b :=
  fun b hb => W10_of_ne m c b fun w e => hb (Finset.mem_image.mpr ⟨w, Finset.mem_univ _, e⟩)

abbrev W11 : Dev nD → Valuation τ sig (Elt F) := fun c => StableHlo.after hostOps5 (W10 m c)
abbrev E11 : (c : Dev nD) → (b : Ref sig .tc) → Buf (Elt F) ((c : Thread nD τ).loc b) := fun c b => W11 m c b
theorem W11_of (c : Dev nD) (r : Ref sig .tc) (h : r ∉ (hostOps5_W : List (Ref sig .tc))) : W11 m c r = W10 m c r :=
  StableHlo.after_of_writes_sub hostOps5 _ hostOps5_writes h

/-- After the last region: only the similarity matrix's buffer changes (both of the region's input windows read one
    array, which it leaves as it was). -/
def W12 (c : Dev nD) : Valuation τ sig (Elt F) :=
  Function.update (W11 m c) (Proc.devRef .tc main_v59) ((dat5 (E11 m) c).arrAt 2 cfg5.N)
abbrev E12 : (c : Dev nD) → (b : Ref sig .tc) → Buf (Elt F) ((c : Thread nD τ).loc b) := fun c b => W12 m c b
theorem W12_out (c : Dev nD) : W12 m c (Proc.devRef .tc main_v59) = (dat5 (E11 m) c).arrAt 2 cfg5.N := by
  unfold W12; exact Function.update_self ..
theorem W12_of_ne (c : Dev nD) (b : Ref sig .tc) (hb : b ≠ main_v59) :
    W12 m c (Proc.devRef .tc b) = W11 m c (Proc.devRef .tc b) := by
  unfold W12; exact Function.update_of_ne (StableHlo.devRef_ne_of_ne hb) ..

/-! ## The argument arrays end as launched -/

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := W11_of m c main_arg0 (by decide)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := W1_of m c main_arg0 (by decide)
    _ = m ((c : Thread nD τ).loc main_arg0) := rfl

theorem W12_main_arg1 (c : Dev nD) : W12 m c (Proc.devRef .tc main_arg1) = m ((c : Thread nD τ).loc main_arg1) :=
  calc W12 m c (Proc.devRef .tc main_arg1)
    _ = W11 m c (Proc.devRef .tc main_arg1) := W12_of_ne m c main_arg1 (by decide)
    _ = W10 m c (Proc.devRef .tc main_arg1) := W11_of m c main_arg1 (by decide)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W12_main_arg2 (c : Dev nD) : W12 m c (Proc.devRef .tc main_arg2) = m ((c : Thread nD τ).loc main_arg2) :=
  calc W12 m c (Proc.devRef .tc main_arg2)
    _ = W11 m c (Proc.devRef .tc main_arg2) := W12_of_ne m c main_arg2 (by decide)
    _ = W10 m c (Proc.devRef .tc main_arg2) := W11_of m c main_arg2 (by decide)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W12_main_arg3 (c : Dev nD) : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := W11_of m c main_arg3 (by decide)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := (W2_arr m c 1).trans (((dat0 (E1 m) c).arrAt_in 1 rfl _).trans (A_eq0 (E1 m) c 1))
    _ = W0 m c (Proc.devRef .tc main_arg3) := W1_of m c main_arg3 (by decide)
    _ = m ((c : Thread nD τ).loc main_arg3) := rfl

theorem W12_main_arg4 (c : Dev nD) : W12 m c (Proc.devRef .tc main_arg4) = m ((c : Thread nD τ).loc main_arg4) :=
  calc W12 m c (Proc.devRef .tc main_arg4)
    _ = W11 m c (Proc.devRef .tc main_arg4) := W12_of_ne m c main_arg4 (by decide)
    _ = W10 m c (Proc.devRef .tc main_arg4) := W11_of m c main_arg4 (by decide)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W12_main_arg5 (c : Dev nD) : W12 m c (Proc.devRef .tc main_arg5) = m ((c : Thread nD τ).loc main_arg5) :=
  calc W12 m c (Proc.devRef .tc main_arg5)
    _ = W11 m c (Proc.devRef .tc main_arg5) := W12_of_ne m c main_arg5 (by decide)
    _ = W10 m c (Proc.devRef .tc main_arg5) := W11_of m c main_arg5 (by decide)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := (W2_arr m c 3).trans (((dat0 (E1 m) c).arrAt_in 3 rfl _).trans (A_eq0 (E1 m) c 3))
    _ = W0 m c (Proc.devRef .tc main_arg5) := W1_of m c main_arg5 (by decide)
    _ = m ((c : Thread nD τ).loc main_arg5) := rfl

theorem W12_main_arg6 (c : Dev nD) : W12 m c (Proc.devRef .tc main_arg6) = m ((c : Thread nD τ).loc main_arg6) :=
  calc W12 m c (Proc.devRef .tc main_arg6)
    _ = W11 m c (Proc.devRef .tc main_arg6) := W12_of_ne m c main_arg6 (by decide)
    _ = W10 m c (Proc.devRef .tc main_arg6) := W11_of m c main_arg6 (by decide)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c

end Cert.Kernel.Hand

end
-- ==== Proof.K.Regs.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Fold
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The program as segments, and its run

Twelve segments: a host stretch, then a kernel region, six times. The thread state between segments: every unscoped
buffer at the boundary's contents, the generator register at some state, nothing owed. -/

variable (m : (ℓ : Loc nD τ sig) → Buf (Elt F) ℓ) (ρ : Dev nD → PrngReg)

abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W12 m c) ∗ ∃ r, prngReg c r)

set_option backward.isDefEq.respectTransparency.types false in
/-- Region 0 over the thread state: entered from every unscoped buffer at `W1`, left at `W2`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c); unfold Pipeline.ΦA
    iintro ⟨Hp, -, Hr⟩
    isplitl [Hr]; · iexact Hr
    iexact Hp
  hout c := by
    rw [Pipeline.ownSems0_none]
    refine (hout1 (E3 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c); unfold Pipeline.ΦA
    iintro ⟨Hp, -, Hr⟩
    isplitl [Hr]; · iexact Hr
    iexact Hp
  hout c := by
    rw [Pipeline.ownSems0_none]
    refine (hout2 (E5 m) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m) c); unfold Pipeline.ΦA
    iintro ⟨Hp, -, Hr⟩
    isplitl [Hr]; · iexact Hr
    iexact Hp
  hout c := by
    rw [Pipeline.ownSems0_none]
    refine (hout3 (E7 m) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (E9 m) c); unfold Pipeline.ΦA
    iintro ⟨Hp, -, Hr⟩
    isplitl [Hr]; · iexact Hr
    iexact Hp
  hout c := by
    rw [Pipeline.ownSems0_none]
    refine (hout4 (E9 m) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Regs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last region as a segment

Its two input windows read ONE array: at entry the array's buffer is split in two halves, one per window; at exit the
halves (unchanged: both windows only read) are joined again. -/

variable (m : (ℓ : Loc nD τ sig) → Buf (Elt F) ℓ) (ρ : Dev nD → PrngReg)

/-- The distinct buffers behind the last region's windows: the scaled encoding and the similarity matrix. -/
theorem arrBufs5_eq (c : Dev nD) (V : (b : Ref sig .tc) → Buf (Elt F) ((c : Thread nD τ).loc b)) :
    (Pipeline.arrBufs (Ix := Unit) (Name := ℕ) (U := UR sig nD τ) (Lvl := ℕ) spec5 c V : sProp 𝕄)
      = iprop((((c : Thread nD τ).loc main_v58) ↦{fullShare} V main_v58) ∗ (((c : Thread nD τ).loc main_v59) ↦{fullShare} V main_v59)) := by
  unfold Pipeline.arrBufs
  exact BI.bigSep_eq_bigSepL_of_eq [main_v58, main_v59] (by decide) (by decide) _

/-- The region's arrays, window by window: the two halves of the encoding's buffer and the matrix's whole. -/
theorem arrays5_eq (V : (c : Dev nD) → (b : Ref sig .tc) → Buf (Elt F) ((c : Thread nD τ).loc b)) (c : Dev nD)
    (Fs : (w : Fin cfg5.W) → Buf (Elt F) ((cfg5.win w).arr.view.loc (c : Thread nD τ))) :
    ((dat5 V c).arrays Fs : sProp 𝕄)
      = iprop((((c : Thread nD τ).loc main_v58) ↦{fullShare.left} Fs 0) ∗ (((c : Thread nD τ).loc main_v58) ↦{fullShare.right} Fs 1)
          ∗ (((c : Thread nD τ).loc main_v59) ↦{fullShare} Fs 2)) := by
  unfold Pipeline.Dat.arrays
  rw [bigSep_W5, (arr_whole5 0).set_eq_univ, (arr_whole5 2).set_eq_univ]
  rfl

set_option backward.isDefEq.respectTransparency.types false in
def reg5 : Pipeline.RegionSeg (pcfgs (F := F)) adm (pdats m) () defs₀ Variants.none L lv 5 where
  win := winFacts₀5
  block_pos := block_pos5
  stage_whole := stage_whole5
  K := PEmpty
  osem k := k.elim
  ho := Pipeline.OwnSemFacts.none _
  hbody c := (body_obligation5 (E11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hs : (unscopedBufs (Ix := Unit) (Name := ℕ) (U := UR sig nD τ) (Lvl := ℕ) c (E11 m c) : sProp 𝕄)
        = iprop(Pipeline.arrBufs spec5 c (E11 m c) ∗ Pipeline.unscopedRest spec5 c (E11 m c)) :=
      Pipeline.unscopedBufs_split₀ (Pipeline.pin (pcfgs (F := F)) adm) 5 winFacts₀5.arr_unscoped c (E11 m c)
    rw [Pipeline.unscopedBufs_held, arrBufs5_eq] at hs
    rw [show ((pdats m 5 c).arrays ((pdats m 5 c).arrAt · 0) : sProp 𝕄) = (dat5 (E11 m) c).arrays ((dat5 (E11 m) c).arrAt · 0) from rfl, arrays5_eq]
    iintro ⟨⟨Hub, Hp, HO⟩, -, -⟩
    ihave H := (BIBase.Entails.of_eq hs) $$ Hub
    icases H with ⟨⟨H58, H59⟩, Hrest⟩
    ihave H58' := (pointsTo_share (PosShare.mem_left_op_right fullShare)).1 $$ H58
    icases H58' with ⟨Hl, Hr⟩
    imodintro
    isplitl [Hl Hr H59]
    · isplitl [Hl]; · iexact Hl
      isplitl [Hr]; · iexact Hr
      iexact H59
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hs : (unscopedBufs (Ix := Unit) (Name := ℕ) (U := UR sig nD τ) (Lvl := ℕ) c (E12 m c) : sProp 𝕄)
        = iprop(Pipeline.arrBufs spec5 c (E12 m c) ∗ Pipeline.unscopedRest spec5 c (E12 m c)) :=
      Pipeline.unscopedBufs_split₀ (Pipeline.pin (pcfgs (F := F)) adm) 5 winFacts₀5.arr_unscoped c (E12 m c)
    rw [Pipeline.unscopedBufs_held, arrBufs5_eq] at hs
    rw [show ((pdats m 5 c).arrays ((pdats m 5 c).arrAt · (Pipeline.pin (pcfgs (F := F)) adm 5).N) : sProp 𝕄)
      = (dat5 (E11 m) c).arrays ((dat5 (E11 m) c).arrAt · cfg5.N) from rfl, arrays5_eq]
    have h0 : (dat5 (E11 m) c).arrAt 0 cfg5.N = E12 m c main_v58 :=
      (((dat5 (E11 m) c).arrAt_in 0 rfl _).trans (A_eq5 (E11 m) c 0)).trans (W12_of_ne m c main_v58 (by decide)).symm
    have h1 : (dat5 (E11 m) c).arrAt 1 cfg5.N = E12 m c main_v58 :=
      (((dat5 (E11 m) c).arrAt_in 1 rfl _).trans (A_eq5 (E11 m) c 1)).trans (W12_of_ne m c main_v58 (by decide)).symm
    have h2 : (dat5 (E11 m) c).arrAt 2 cfg5.N = E12 m c main_v59 := (W12_out m c).symm
    have hrest : (Pipeline.unscopedRest (Ix := Unit) (Name := ℕ) (U := UR sig nD τ) (Lvl := ℕ) spec5 c (E11 m c) : sProp 𝕄)
        = Pipeline.unscopedRest spec5 c (E12 m c) := by
      unfold Pipeline.unscopedRest
      refine BI.bigSep_congr fun b hb => ?_
      have hb' : b ≠ main_v59 := fun e => (Finset.mem_sdiff.mp hb).2 (e ▸ Finset.mem_image.mpr ⟨2, Finset.mem_univ _, rfl⟩)
      rw [show E12 m c b = E11 m c b from W12_of_ne m c b hb']
    rw [h0, h1, h2, hrest]
    iintro ⟨⟨Hl, Hr, H59⟩, HO, HY, Hrest⟩
    ihave H58 := (pointsTo_share (PosShare.mem_left_op_right fullShare)).2 $$ [Hl Hr]
    · isplitl [Hl]; · iexact Hl
      iexact Hr
    imodintro
    isplitl [H58 H59 Hrest HY]
    · isplitl [H58 H59 Hrest]
      · iapply (BIBase.Entails.of_eq hs.symm)
        isplitl [H58 H59]
        · isplitl [H58]; · iexact H58
          iexact H59
        iexact Hrest
      iexact HY
    unfold Pipeline.Dat.owesAt Pipeline.owesWithin
    icases HO with ⟨%W, -, HO⟩; iexists W; iexact HO

end Cert.Kernel.Hand

end
-- ==== Proof.K.Run.lean ====
import proofs.«146826_j214748365383_2_alg».proof.Proof.Gen.Kernel.Launch
import proofs.«146826_j214748365383_2_alg».proof.Proof.Gen.Kernel.Skeleton
import proofs.«146826_j214748365383_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.K.Reg5
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

Every weakly fair execution terminates, and the final memory holds every unscoped buffer of every core at the last
boundary's contents `W12`; the frame claim and the results' values are read off that. -/

variable (m : (ℓ : Loc nD τ sig) → Buf (Elt F) ℓ) (ρ : Dev nD → PrngReg)

abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ Variants.none L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c)⟩) (run_all m ρ)

end Cert.Kernel.Hand

end
-- ==== Proof.KI.Mlp.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The encoder region (the first kernel launch): two dense layers with rectifiers on a block of 1024 rows.

Stated at a parameter `V`, the buffer contents the region is entered with. The body reads its five input blocks
whole, computes `max (max (x · W1 + b1) 0 · W2 + b2) 0` and stores it whole into the output block. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev r0_out : Rect S1024x128 := Rect.unit (s := S1024x128) ![0, 0] S1024x128.size inb_S1024x128_S1024x128_0_0

/-- The output block after the body, from the five input blocks: one store of the whole block. -/
def out0_5 (x0 : Vec F S1024x256 .f32) (x1 : Vec F S256x256 .f32) (x2 : Vec F S1x256 .f32) (x3 : Vec F S256x128 .f32) (x4 : Vec F S1x128 .f32) : Vec F S1024x128 .f32 :=
  View.canon [⟨r0_out, k0_pay1 (View.ld x0 (Rect.unit (s := S1024x256) ![0, 0] S1024x256.size inb_S1024x256_S1024x256_0_0))
    (View.ld x1 (Rect.unit (s := S256x256) ![0, 0] S256x256.size inb_S256x256_S256x256_0_0))
    (View.ld x2 (Rect.unit (s := S1x256) ![0, 0] S1x256.size inb_S1x256_S1x256_0_0))
    (View.ld x3 (Rect.unit (s := S256x128) ![0, 0] S256x128.size inb_S256x128_S256x128_0_0))
    (View.ld x4 (Rect.unit (s := S1x128) ![0, 0] S1x128.size inb_S1x128_S1x128_0_0))⟩]

/-- The one store covers the block. -/
theorem cover0_5 (p0 : Vec F S1024x128 .f32) (y : S1024x128.Idx) :
    ∃ pc ∈ ([⟨r0_out, p0⟩] : List (View.Piece (Elt F) S1024x128 .f32)), y ∈ pc.1.set :=
  View.cover_of_tiled [⟨r0_out, p0⟩] S1024x128.size (by rfl) y

set_option maxHeartbeats 4000000 in
/-- The body on whole staging buffers: the inputs are kept, the output ends at `out0_5` of the inputs. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S1024x128 .f32) (harg6 : arg6.IsWhole)
    (x0 : Vec F S1024x256 .f32) (x1 : Vec F S256x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of the encoder's pipeline on core `c`: the arrays as the region finds them; after the body each
    input's buffer at its block and the output's at `out0_5` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Lap1Run.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 1: a block product accumulated over the second grid axis in a scratch buffer,
reset at its first point and copied to the output block at its last. Stated at the entry contents `V`. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's first branch: the point is the first along the reduction axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second branch: the point is the last along the reduction axis. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S1024x128 .f32 := (Memref.whole cc1_stg2_0 : Memref sig .tc .vmem S1024x128 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x128 .f32 := Memref.whole cc1_scratch0
abbrev VS1_0 : View sig .tc .vmem S1024x128 .f32 := scM1_0.view

/-- The class invariant with the accumulator split out, owned at some contents. -/
theorem PhiA1_eq (c : Dev nD) :
    (Pipeline.ΦA spec1 c : sProp 𝕄)
      = iprop(iprop((∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's run, case by case -/

set_option maxHeartbeats 4000000 in
/-- First point of a row of blocks: the accumulator is reset, then the block product added; the output block untouched. -/
noncomputable def kernelRun1_A (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lap_matmul_kernel i arg2 harg2 arg3 harg3 arg4 harg4 arg5 harg5) K } := by
  refine ⟨[], ?_, fun xi2 E K => ?run⟩
  case run =>
    simp only [cc1__lap_matmul_kernel_eq_skeleton]; unfold cc1__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun1_B (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__lap_matmul_kernel i arg2 harg2 arg3 harg3 arg4 harg4 arg5 harg5) K } := by
  refine ⟨[], ?_, fun xi2 E K => ?run⟩
  case run =>
    simp only [cc1__lap_matmul_kernel_eq_skeleton]; unfold cc1__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun1_C (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__lap_matmul_kernel i arg2 harg2 arg3 harg3 arg4 harg4 arg5 harg5) K } := by
  refine ⟨?_, ?_, fun E K => ?run⟩
  case run =>
    simp only [cc1__lap_matmul_kernel_eq_skeleton]; unfold cc1__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region1

end Cert.KernelIdeal.Hand

end
-- ==== Proof.KI.Lap1.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Lap1Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1F
variable (V : (c : Dev nD) → (b : Ref sig .tc) → Buf (Elt F) ((c : Thread nD τ).loc b))

/-- Case A: what the output block's buffer holds afterwards, as the stored pieces read back (none: a placeholder nothing consults). -/
def out1_A_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) : Vec F S1024x128 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- What case A leaves in the accumulator. -/
def sout1_A_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x1024 .bf16) (x1 : Vec F S1024x128 .f32) : Vec F S1024x128 .f32 :=
  VS1_0.read (Elt F) (VS1_0.writes (Elt F) VS1_0.junk (kernelRun1_A c i arg2 harg2 arg3 harg3 arg4 harg4 arg5 harg5 hc0 hc1 x0 x1).2.1)

/-- Case B: what the output block's buffer holds afterwards, as the stored pieces read back (none: a placeholder nothing consults). -/
def out1_B_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) : Vec F S1024x128 .f32 :=
  VO1_2.read (Elt F) (VO1_2.writes (Elt F) VO1_2.junk (kernelRun1_B c i arg2 harg2 arg3 harg3 arg4 harg4 arg5 harg5 hc0 hc1 x0 x1 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- What case B leaves in the accumulator. -/
def sout1_B_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x1024 .bf16) (x1 : Vec F S1024x128 .f32) (xs0 : Vec F S1024x128 .f32) : Vec F S1024x128 .f32 :=
  VS1_0.read (Elt F) (VS1_0.writes (Elt F) VS1_0.junk (kernelRun1_B c i arg2 harg2 arg3 harg3 arg4 harg4 arg5 harg5 hc0 hc1 x0 x1 xs0).2.1)

/-- Case C: what the output block's buffer holds afterwards, as the stored pieces read back. -/
def out1_C_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) : Vec F S1024x128 .f32 :=
  VO1_2.read (Elt F) (VO1_2.writes (Elt F) VO1_2.junk (kernelRun1_C c i arg2 harg2 arg3 harg3 arg4 harg4 arg5 harg5 hc0 hc1 x0 x1 xs0).1)

theorem cover1_C_2 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- Case C's stores into the accumulator cover it. -/
theorem scover1_C_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- What case C leaves in the accumulator. -/
def sout1_C_0 (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x1024 .bf16) (x1 : Vec F S1024x128 .f32) (xs0 : Vec F S1024x128 .f32) : Vec F S1024x128 .f32 :=
  VS1_0.read (Elt F) (VS1_0.writes (Elt F) VS1_0.junk (kernelRun1_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt1 (c : Dev nD) : (n : ℕ) → n < cfg1.N → Vec F S1024x128 .f32 × Vec F S1024x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this step's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point: the position's case decides which run applies; the invariant hands the body the accumulator at
    what the point before left (at anything at the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ )
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, HR⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ )
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Region1F

end Cert.KernelIdeal.Hand

end
-- ==== Proof.KI.Lap2Run.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 2: a block product accumulated over the second grid axis in a scratch buffer,
reset at its first point and copied to the output block at its last. Stated at the entry contents `V`. -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's first branch: the point is the first along the reduction axis. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The body's second branch: the point is the last along the reduction axis. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-- One staging buffer of the output window, through which its contents are stated. -/
abbrev VO2_2 : View sig .tc .vmem S1024x128 .f32 := (Memref.whole cc2_stg2_0 : Memref sig .tc .vmem S1024x128 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x128 .f32 := Memref.whole cc2_scratch0
abbrev VS2_0 : View sig .tc .vmem S1024x128 .f32 := scM2_0.view

/-- The class invariant with the accumulator split out, owned at some contents. -/
theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's run, case by case -/

set_option maxHeartbeats 4000000 in
/-- First point of a row of blocks: the accumulator is reset, then the block product added; the output block untouched. -/
noncomputable def kernelRun2_A (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lap_matmul_kernel i arg2 harg2 arg3 harg3 arg4 harg4 arg5 harg5) K } := by
  refine ⟨[], ?_, fun xi2 E K => ?run⟩
  case run =>
    simp only [cc2__lap_matmul_kernel_eq_skeleton]; unfold cc2__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun2_B (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__lap_matmul_kernel i arg2 harg2 arg3 harg3 arg4 harg4 arg5 harg5) K } := by
  refine ⟨[], ?_, fun xi2 E K => ?run⟩
  case run =>
    simp only [cc2__lap_matmul_kernel_eq_skeleton]; unfold cc2__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun2_C (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__lap_matmul_kernel i arg2 harg2 arg3 harg3 arg4 harg4 arg5 harg5) K } := by
  refine ⟨?_, ?_, fun E K => ?run⟩
  case run =>
    simp only [cc2__lap_matmul_kernel_eq_skeleton]; unfold cc2__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region2

end Cert.KernelIdeal.Hand

end
-- ==== Proof.KI.Lap2.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Lap2Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2F
variable (V : (c : Dev nD) → (b : Ref sig .tc) → Buf (Elt F) ((c : Thread nD τ).loc b))

/-- Case A: what the output block's buffer holds afterwards, as the stored pieces read back (none: a placeholder nothing consults). -/
def out2_A_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) : Vec F S1024x128 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) (y : S1024x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x128.size (by sl_kernel_rfl) y

/-- What case A leaves in the accumulator. -/
def sout2_A_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond2_0 i) (hc1 : ¬cond2_1 i)
    (x0 : Vec F S1024x1024 .bf16) (x1 : Vec F S1024x128 .f32) : Vec F S1024x128 .f32 :=
  VS2_0.read (Elt F) (VS2_0.writes (Elt F) VS2_0.junk (kernelRun2_A c i arg2 harg2 arg3 harg3 arg4 harg4 arg5 harg5 hc0 hc1 x0 x1).2.1)

/-- Case B: what the output block's buffer holds afterwards, as the stored pieces read back (none: a placeholder nothing consults). -/
def out2_B_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) : Vec F S1024x128 .f32 :=
  VO2_2.read (Elt F) (VO2_2.writes (Elt F) VO2_2.junk (kernelRun2_B c i arg2 harg2 arg3 harg3 arg4 harg4 arg5 harg5 hc0 hc1 x0 x1 xs0).1)

/-- Case B's stores into the accumulator cover it. -/
theorem scover2_B_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) (y : S1024x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x128.size (by sl_kernel_rfl) y

/-- What case B leaves in the accumulator. -/
def sout2_B_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : ¬cond2_1 i)
    (x0 : Vec F S1024x1024 .bf16) (x1 : Vec F S1024x128 .f32) (xs0 : Vec F S1024x128 .f32) : Vec F S1024x128 .f32 :=
  VS2_0.read (Elt F) (VS2_0.writes (Elt F) VS2_0.junk (kernelRun2_B c i arg2 harg2 arg3 harg3 arg4 harg4 arg5 harg5 hc0 hc1 x0 x1 xs0).2.1)

/-- Case C: what the output block's buffer holds afterwards, as the stored pieces read back. -/
def out2_C_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) : Vec F S1024x128 .f32 :=
  VO2_2.read (Elt F) (VO2_2.writes (Elt F) VO2_2.junk (kernelRun2_C c i arg2 harg2 arg3 harg3 arg4 harg4 arg5 harg5 hc0 hc1 x0 x1 xs0).1)

theorem cover2_C_2 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) (y : S1024x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x128.size (by sl_kernel_rfl) y

/-- Case C's stores into the accumulator cover it. -/
theorem scover2_C_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) (y : S1024x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x128.size (by sl_kernel_rfl) y

/-- What case C leaves in the accumulator. -/
def sout2_C_0 (c : Dev nD) (i : grid2.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond2_0 i) (hc1 : cond2_1 i)
    (x0 : Vec F S1024x1024 .bf16) (x1 : Vec F S1024x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt2 (c : Dev nD) : (n : ℕ) → n < cfg2.N → Vec F S1024x128 .f32 × Vec F S1024x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this step's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point: the position's case decides which run applies; the invariant hands the body the accumulator at
    what the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ )
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ )
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ )
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, HR⟩, Hg⟩
  isplitl [HS0 HR]
  · isplitl [HS0]
    · iexists _; iexact HS0
    iexact HR
  iexact Hg

end Region2F

end Cert.KernelIdeal.Hand

end
-- ==== Proof.KI.Lap3Run.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 3: a block product accumulated over the second grid axis in a scratch buffer,
reset at its first point and copied to the output block at its last. Stated at the entry contents `V`. -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body's first branch: the point is the first along the reduction axis. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The body's second branch: the point is the last along the reduction axis. -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-- One staging buffer of the output window, through which its contents are stated. -/
abbrev VO3_2 : View sig .tc .vmem S1024x128 .f32 := (Memref.whole cc3_stg2_0 : Memref sig .tc .vmem S1024x128 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S1024x128 .f32 := Memref.whole cc3_scratch0
abbrev VS3_0 : View sig .tc .vmem S1024x128 .f32 := scM3_0.view

/-- The class invariant with the accumulator split out, owned at some contents. -/
theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's run, case by case -/

set_option maxHeartbeats 4000000 in
/-- First point of a row of blocks: the accumulator is reset, then the block product added; the output block untouched. -/
noncomputable def kernelRun3_A (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__lap_matmul_kernel i arg2 harg2 arg3 harg3 arg4 harg4 arg5 harg5) K } := by
  refine ⟨[], ?_, fun xi2 E K => ?run⟩
  case run =>
    simp only [cc3__lap_matmul_kernel_eq_skeleton]; unfold cc3__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun3_B (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__lap_matmul_kernel i arg2 harg2 arg3 harg3 arg4 harg4 arg5 harg5) K } := by
  refine ⟨[], ?_, fun xi2 E K => ?run⟩
  case run =>
    simp only [cc3__lap_matmul_kernel_eq_skeleton]; unfold cc3__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun3_C (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__lap_matmul_kernel i arg2 harg2 arg3 harg3 arg4 harg4 arg5 harg5) K } := by
  refine ⟨?_, ?_, fun E K => ?run⟩
  case run =>
    simp only [cc3__lap_matmul_kernel_eq_skeleton]; unfold cc3__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region3

end Cert.KernelIdeal.Hand

end
-- ==== Proof.KI.Lap3.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Lap3Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3F
variable (V : (c : Dev nD) → (b : Ref sig .tc) → Buf (Elt F) ((c : Thread nD τ).loc b))

/-- Case A: what the output block's buffer holds afterwards, as the stored pieces read back (none: a placeholder nothing consults). -/
def out3_A_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) : Vec F S1024x128 .f32 :=
  VO3_2.read (Elt F) (VO3_2.writes (Elt F) VO3_2.junk (kernelRun3_A c i arg2 harg2 arg3 harg3 arg4 harg4 arg5 harg5 hc0 hc1 x0 x1).1)

/-- Case A's stores into the accumulator cover it. -/
theorem scover3_A_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) (y : S1024x128.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x128.size (by sl_kernel_rfl) y

/-- What case A leaves in the accumulator. -/
def sout3_A_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond3_0 i) (hc1 : ¬cond3_1 i)
    (x0 : Vec F S1024x1024 .bf16) (x1 : Vec F S1024x128 .f32) : Vec F S1024x128 .f32 :=
  VS3_0.read (Elt F) (VS3_0.writes (Elt F) VS3_0.junk (kernelRun3_A c i arg2 harg2 arg3 harg3 arg4 harg4 arg5 harg5 hc0 hc1 x0 x1).2.1)

/-- Case B: what the output block's buffer holds afterwards, as the stored pieces read back (none: a placeholder nothing consults). -/
def out3_B_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) : Vec F S1024x128 .f32 :=
  VO3_2.read (Elt F) (VO3_2.writes (Elt F) VO3_2.junk (kernelRun3_B c i arg2 harg2 arg3 harg3 arg4 harg4 arg5 harg5 hc0 hc1 x0 x1 xs0).1)

/-- Case B's stores into the accumulator cover it. -/
theorem scover3_B_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) (y : S1024x128.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x128.size (by sl_kernel_rfl) y

/-- What case B leaves in the accumulator. -/
def sout3_B_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : ¬cond3_1 i)
    (x0 : Vec F S1024x1024 .bf16) (x1 : Vec F S1024x128 .f32) (xs0 : Vec F S1024x128 .f32) : Vec F S1024x128 .f32 :=
  VS3_0.read (Elt F) (VS3_0.writes (Elt F) VS3_0.junk (kernelRun3_B c i arg2 harg2 arg3 harg3 arg4 harg4 arg5 harg5 hc0 hc1 x0 x1 xs0).2.1)

/-- Case C: what the output block's buffer holds afterwards, as the stored pieces read back. -/
def out3_C_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) : Vec F S1024x128 .f32 :=
  VO3_2.read (Elt F) (VO3_2.writes (Elt F) VO3_2.junk (kernelRun3_C c i arg2 harg2 arg3 harg3 arg4 harg4 arg5 harg5 hc0 hc1 x0 x1 xs0).1)

theorem cover3_C_2 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) (y : S1024x128.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x128.size (by sl_kernel_rfl) y

/-- Case C's stores into the accumulator cover it. -/
theorem scover3_C_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) (y : S1024x128.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x128.size (by sl_kernel_rfl) y

/-- What case C leaves in the accumulator. -/
def sout3_C_0 (c : Dev nD) (i : grid3.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond3_0 i) (hc1 : cond3_1 i)
    (x0 : Vec F S1024x1024 .bf16) (x1 : Vec F S1024x128 .f32) (xs0 : Vec F S1024x128 .f32) : Vec F S1024x128 .f32 :=
  VS3_0.read (Elt F) (VS3_0.writes (Elt F) VS3_0.junk (kernelRun3_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt3 (c : Dev nD) : (n : ℕ) → n < cfg3.N → Vec F S1024x128 .f32 × Vec F S1024x128 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of this step's pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point: the position's case decides which run applies; the invariant hands the body the accumulator at
    what the point before left (at anything at the first point) and takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ )
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_C c (grid3.coords t) _ _ _ _ _ _ _ _ (fun h => h0 ((hcond3_0 t).mp h)) ((hcond3_1 t).mpr h1) (iblk3 V c 0 t) (iblk3 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover3_C_2 c _ _ _ _ _ _ _ _ _ _ _ _ _ _ )
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩⟩
      iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ )
          iexact HR
        iexact Hg
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 64 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, HR⟩, Hg⟩
  isplitl [HS0 HR]
  · isplitl [HS0]
    · iexists _; iexact HS0
    iexact HR
  iexact Hg

end Region3F

end Cert.KernelIdeal.Hand

end
-- ==== Proof.KI.Lap4Run.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Laplacian step 4: a block product accumulated over the second grid axis in a scratch buffer,
reset at its first point and copied to the output block at its last. Stated at the entry contents `V`. -/

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's first branch: the point is the first along the reduction axis. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 8 = 0 :=
  (by decide +kernel : ∀ t : Fin grid4.N, cond4_0 (grid4.coords t) ↔ t.val % 8 = 0)
/-- The body's second branch: the point is the last along the reduction axis. -/
abbrev cond4_1 (i : grid4.Coords) : Prop := k4_cond2 i = 1#1
theorem hcond4_1 : ∀ t : Fin cfg4.N, cond4_1 (grid4.coords t) ↔ t.val % 8 = 7 :=
  (by decide +kernel : ∀ t : Fin grid4.N, cond4_1 (grid4.coords t) ↔ t.val % 8 = 7)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-- One staging buffer of the output window, through which its contents are stated. -/
abbrev VO4_2 : View sig .tc .vmem S1024x128 .f32 := (Memref.whole cc4_stg2_0 : Memref sig .tc .vmem S1024x128 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S1024x128 .f32 := Memref.whole cc4_scratch0
abbrev VS4_0 : View sig .tc .vmem S1024x128 .f32 := scM4_0.view

/-- The class invariant with the accumulator split out, owned at some contents. -/
theorem PhiA4_eq (c : Dev nD) :
    (Pipeline.ΦA spec4 c : sProp 𝕄)
      = iprop(iprop((∃ d, owns (c : Thread nD τ) scM4_0 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's run, case by case -/

set_option maxHeartbeats 4000000 in
/-- First point of a row of blocks: the accumulator is reset, then the block product added; the output block untouched. -/
noncomputable def kernelRun4_A (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__lap_matmul_kernel i arg2 harg2 arg3 harg3 arg4 harg4 arg5 harg5) K } := by
  refine ⟨[], ?_, fun xi2 E K => ?run⟩
  case run =>
    simp only [cc4__lap_matmul_kernel_eq_skeleton]; unfold cc4__lap_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- An inner point: the block product is added to what the accumulator held; the output block untouched. -/
noncomputable def kernelRun4_B (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__lap_matmul_kernel i arg2 harg2 arg3 harg3 arg4 harg4 arg5 harg5) K } := by
  refine ⟨[], ?_, fun xi2 E K => ?run⟩
  case run =>
    simp only [cc4__lap_matmul_kernel_eq_skeleton]; unfold cc4__lap_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Last point of a row of blocks: the block product is added, and the total is stored into the output block. -/
noncomputable def kernelRun4_C (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__lap_matmul_kernel i arg2 harg2 arg3 harg3 arg4 harg4 arg5 harg5) K } := by
  refine ⟨?_, ?_, fun E K => ?run⟩
  case run =>
    simp only [cc4__lap_matmul_kernel_eq_skeleton]; unfold cc4__lap_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Region4

end Cert.KernelIdeal.Hand

end
-- ==== Proof.KI.Lap4.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Lap4Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4F
variable (V : (c : Dev nD) → (b : Ref sig .tc) → Buf (Elt F) ((c : Thread nD τ).loc b))

/-- Case A: what the output block's buffer holds afterwards, as the stored pieces read back (none: a placeholder nothing consults). -/
def out4_A_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) : Vec F S1024x128 .f32 :=
  VO4_2.read (Elt F) (VO4_2.writes (Elt F) VO4_2.junk (kernelRun4_A c i arg2 harg2 arg3 harg3 arg4 harg4 arg5 harg5 hc0 hc1 x0 x1).1)

/-- Case A's stores into the accumulator cover it. -/
theorem scover4_A_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) (y : S1024x128.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x128.size (by sl_kernel_rfl) y

/-- What case A leaves in the accumulator. -/
def sout4_A_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : cond4_0 i) (hc1 : ¬cond4_1 i)
    (x0 : Vec F S1024x1024 .bf16) (x1 : Vec F S1024x128 .f32) : Vec F S1024x128 .f32 :=
  VS4_0.read (Elt F) (VS4_0.writes (Elt F) VS4_0.junk (kernelRun4_A c i arg2 harg2 arg3 harg3 arg4 harg4 arg5 harg5 hc0 hc1 x0 x1).2.1)

/-- Case B: what the output block's buffer holds afterwards, as the stored pieces read back (none: a placeholder nothing consults). -/
def out4_B_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) : Vec F S1024x128 .f32 :=
  VO4_2.read (Elt F) (VO4_2.writes (Elt F) VO4_2.junk (kernelRun4_B c i arg2 harg2 arg3 harg3 arg4 harg4 arg5 harg5 hc0 hc1 x0 x1 xs0).1)

/-- Case B's stores into the accumulator cover it. -/
theorem scover4_B_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) (y : S1024x128.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x128.size (by sl_kernel_rfl) y

/-- What case B leaves in the accumulator. -/
def sout4_B_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : ¬cond4_1 i)
    (x0 : Vec F S1024x1024 .bf16) (x1 : Vec F S1024x128 .f32) (xs0 : Vec F S1024x128 .f32) : Vec F S1024x128 .f32 :=
  VS4_0.read (Elt F) (VS4_0.writes (Elt F) VS4_0.junk (kernelRun4_B c i arg2 harg2 arg3 harg3 arg4 harg4 arg5 harg5 hc0 hc1 x0 x1 xs0).2.1)

/-- Case C: what the output block's buffer holds afterwards, as the stored pieces read back. -/
def out4_C_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) : Vec F S1024x128 .f32 :=
  VO4_2.read (Elt F) (VO4_2.writes (Elt F) VO4_2.junk (kernelRun4_C c i arg2 harg2 arg3 harg3 arg4 harg4 arg5 harg5 hc0 hc1 x0 x1 xs0).1)

theorem cover4_C_2 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) (y : S1024x128.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x128.size (by sl_kernel_rfl) y

/-- Case C's stores into the accumulator cover it. -/
theorem scover4_C_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) (y : S1024x128.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x128.size (by sl_kernel_rfl) y

/-- What case C leaves in the accumulator. -/
def sout4_C_0 (c : Dev nD) (i : grid4.Coords) (arg2 : Memref sig .tc .vmem S1024x1024 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (hc0 : ¬cond4_0 i) (hc1 : cond4_1 i)
    (x0 : Vec F S1024x1024 .bf16) (x1 : Vec F S1024x128 .f32) (xs0 : Vec F S1024x128 .f32) : Vec F S1024x128 .f32 :=
  VS4_0.read (Elt F) (VS4_0.writes (Elt F) VS4_0.junk (kernelRun4_C c i arg2 harg2 arg3 harg3 arg4 harg4 arg5 harg5 hc0 hc1 x0 x1 xs0).2.1)

/-- THE ACCUMULATION: what the output block's buffer and the accumulator hold after the body at position `n`, by
    recursion on the position: the case the position selects, run on the point's input blocks and (past a row's first
    point) on what the accumulator held after the point before. -/
def outsAt4 (c : Dev nD) : (n : ℕ) → n < cfg4.N → Vec F S1024x128 .f32 × Vec F S1024x128 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left in it, the other scoped buffers at anything, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The proof data of this step's pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
/-- The body at any point: the position's case decides which run applies; the invariant hands the body the accumulator at
    what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 64 := lt_of_lt_of_eq t.isLt (show cfg4.N = 64 from N_4)
  by_cases h0 : t.val % 8 = 0
  · by_cases h1 : t.val % 8 = 7
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ )
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ )
            iexact HR
          iexact Hg
        isplitl [Ho]; · iexact Ho
        isplitl [H0]; · iexact H0
        isplitl [H1]; · iexact H1
        iexists _; iexact H2
  · by_cases h1 : t.val % 8 = 7
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_C_0 c _ _ _ _ _ _ _ _ _ _ _ _ _ _ )
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _ )
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      have hz : t.val ≠ 0 := by omega
      rw [PhiS4_castSucc V c t, PhiS4_pos V c _ _ hz]
      iintro ⟨⟨⟨HS0, HR⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover4_B_0 c _ _ _ _ _ _ _ _ _ _ _ _ _ _ )
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 64 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, HR⟩, Hg⟩
  isplitl [HS0 HR]
  · isplitl [HS0]
    · iexists _; iexact HS0
    iexact HR
  iexact Hg

end Region4F

end Cert.KernelIdeal.Hand

end
-- ==== Proof.KI.Aat.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The similarity region (the last kernel launch): a block of 2048 rows against a block of 1024 rows of ONE array,
each output block the products of rows, `out (r, s) = Σ d, a (r, d) · b (s, d)`. Stated at the entry contents `V`.
Both input windows read the same array, so each holds half of it. -/

section Region5
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_out : Rect S2048x1024 := Rect.unit (s := S2048x1024) ![0, 0] S2048x1024.size inb_S2048x1024_S2048x1024_0_0

/-- The output block after the body, from the two input blocks: one store of the whole block. -/
def out5_2 (x0 : Vec F S2048x128 .f32) (x1 : Vec F S1024x128 .f32) : Vec F S2048x1024 .f32 :=
  View.canon [⟨r5_out, k5_pay1 (View.ld x0 (Rect.unit (s := S2048x128) ![0, 0] S2048x128.size inb_S2048x128_S2048x128_0_0))
    (View.ld x1 (Rect.unit (s := S1024x128) ![0, 0] S1024x128.size inb_S1024x128_S1024x128_0_0))⟩]

theorem cover5_2 (p0 : Vec F S2048x1024 .f32) (y : S2048x1024.Idx) :
    ∃ pc ∈ ([⟨r5_out, p0⟩] : List (View.Piece (Elt F) S2048x1024 .f32)), y ∈ pc.1.set :=
  View.cover_of_tiled [⟨r5_out, p0⟩] S2048x1024.size (by rfl) y

set_option maxHeartbeats 4000000 in
theorem sound_kernel5 (c : Dev nD) (E : Set ℕ) (i : grid5.Coords)
    (arg2 : Memref sig .tc .vmem S2048x128 .f32) (harg2 : arg2.IsWhole) (arg3 : Memref sig .tc .vmem S1024x128 .f32) (harg3 : arg3.IsWhole)
    (arg4 : Memref sig .tc .vmem S2048x1024 .f32) (harg4 : arg4.IsWhole)
    (x0 : Vec F S2048x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out5_2 x0 x1)) -∗ K ⟨⟩))
      ⊢ wp frame (wpE (defs₀ (F := F)) Variants.none c none) E (cc5__aat_kernel i arg2 harg2 arg3 harg3 arg4 harg4) K := by
  simp only [cc5__aat_kernel_eq_skeleton]; unfold cc5__aat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of the similarity pipeline on core `c`; the two input windows each hold half of their one array. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.Fold.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Mlp
import proofs.«146826_j214748365383_2_alg».proof.Proof.KI.Lap1
import proofs.«146826_j214748365383_2_alg».proof.Proof.KI.Lap2
import proofs.«146826_j214748365383_2_alg».proof.Proof.KI.Lap3
import proofs.«146826_j214748365383_2_alg».proof.Proof.KI.Lap4
import proofs.«146826_j214748365383_2_alg».proof.Proof.KI.Aat
import proofs.«146826_j214748365383_2_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents from the launch to the return

`Wj c` is what core `c`'s unscoped buffers hold after the first `j` items of the program (host stretches and kernel
regions alternate, six of each): a host stretch applies its operations; a region leaves its arrays at what its
write-backs fold to and every other buffer as it was. `Ej` is `Wj` read at the TensorCore's references. -/

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev E1 : (c : Dev nD) → (b : Ref sig .tc) → Buf (Elt F) ((c : Thread nD τ).loc b) := fun c b => W1 m c b
theorem W1_of (c : Dev nD) (r : Ref sig .tc) (h : r ∉ (hostOps0_W : List (Ref sig .tc))) : W1 m c r = W0 m c r :=
  StableHlo.after_of_writes_sub hostOps0 _ hostOps0_writes h

def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev E3 : (c : Dev nD) → (b : Ref sig .tc) → Buf (Elt F) ((c : Thread nD τ).loc b) := fun c b => W3 m c b
theorem W3_of (c : Dev nD) (r : Ref sig .tc) (h : r ∉ (hostOps1_W : List (Ref sig .tc))) : W3 m c r = W2 m c r :=
  StableHlo.after_of_writes_sub hostOps1 _ hostOps1_writes h

def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev E5 : (c : Dev nD) → (b : Ref sig .tc) → Buf (Elt F) ((c : Thread nD τ).loc b) := fun c b => W5 m c b
theorem W5_of (c : Dev nD) (r : Ref sig .tc) (h : r ∉ (hostOps2_W : List (Ref sig .tc))) : W5 m c r = W4 m c r :=
  StableHlo.after_of_writes_sub hostOps2 _ hostOps2_writes h

def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev E7 : (c : Dev nD) → (b : Ref sig .tc) → Buf (Elt F) ((c : Thread nD τ).loc b) := fun c b => W7 m c b
theorem W7_of (c : Dev nD) (r : Ref sig .tc) (h : r ∉ (hostOps3_W : List (Ref sig .tc))) : W7 m c r = W6 m c r :=
  StableHlo.after_of_writes_sub hostOps3 _ hostOps3_writes h

def W8 (c : Dev nD) : Valuation τ sig (Elt F) :=
  Pipeline.withArrays spec3 c (W7 m c) fun w => (dat3 (E7 m) c).arrAt w cfg3.N
theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev E8 : (c : Dev nD) → (b : Ref sig .tc) → Buf (Elt F) ((c : Thread nD τ).loc b) := fun c b => W8 m c b
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)

abbrev W9 : Dev nD → Valuation τ sig (Elt F) := fun c => StableHlo.after hostOps4 (W8 m c)
abbrev E9 : (c : Dev nD) → (b : Ref sig .tc) → Buf (Elt F) ((c : Thread nD τ).loc b) := fun c b => W9 m c b
theorem W9_of (c : Dev nD) (r : Ref sig .tc) (h : r ∉ (hostOps4_W : List (Ref sig .tc))) : W9 m c r = W8 m c r :=
  StableHlo.after_of_writes_sub hostOps4 _ hostOps4_writes h

def W10 (c : Dev nD) : Valuation τ sig (Elt F) :=
  Pipeline.withArrays spec4 c (W9 m c) fun w => (dat4 (E9 m) c).arrAt w cfg4.N
theorem W10_arr (c : Dev nD) (w : Fin cfg4.W) :
    W10 m c (Proc.devRef .tc (Pipeline.arrRef spec4 w)) = (dat4 (E9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev E10 : (c : Dev nD) → (b : Ref sig .tc) → Buf (Elt F) ((c : Thread nD τ).loc b) := fun c b => W10 m c b
theorem hF4 (c : Dev nD) (w : Fin cfg4.W) : (dat4 (E9 m) c).arrAt w cfg4.N = E10 m c (Pipeline.arrRef spec4 w) :=
  (W10_arr m c w).symm
theorem hrest4 (c : Dev nD) : ∀ b, b ∉ Finset.univ.image (Pipeline.arrRef spec4) → E10 m c b = E9 m c b :=
  fun b hb => W10_of_ne m c b fun w e => hb (Finset.mem_image.mpr ⟨w, Finset.mem_univ _, e⟩)

abbrev W11 : Dev nD → Valuation τ sig (Elt F) := fun c => StableHlo.after hostOps5 (W10 m c)
abbrev E11 : (c : Dev nD) → (b : Ref sig .tc) → Buf (Elt F) ((c : Thread nD τ).loc b) := fun c b => W11 m c b
theorem W11_of (c : Dev nD) (r : Ref sig .tc) (h : r ∉ (hostOps5_W : List (Ref sig .tc))) : W11 m c r = W10 m c r :=
  StableHlo.after_of_writes_sub hostOps5 _ hostOps5_writes h

/-- After the last region: only the similarity matrix's buffer changes (both of the region's input windows read one
    array, which it leaves as it was). -/
def W12 (c : Dev nD) : Valuation τ sig (Elt F) :=
  Function.update (W11 m c) (Proc.devRef .tc main_v59) ((dat5 (E11 m) c).arrAt 2 cfg5.N)
abbrev E12 : (c : Dev nD) → (b : Ref sig .tc) → Buf (Elt F) ((c : Thread nD τ).loc b) := fun c b => W12 m c b
theorem W12_out (c : Dev nD) : W12 m c (Proc.devRef .tc main_v59) = (dat5 (E11 m) c).arrAt 2 cfg5.N := by
  unfold W12; exact Function.update_self ..
theorem W12_of_ne (c : Dev nD) (b : Ref sig .tc) (hb : b ≠ main_v59) :
    W12 m c (Proc.devRef .tc b) = W11 m c (Proc.devRef .tc b) := by
  unfold W12; exact Function.update_of_ne (StableHlo.devRef_ne_of_ne hb) ..

/-! ## The argument arrays end as launched -/

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := W11_of m c main_arg0 (by decide)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (E1 m) c).arrAt_in 0 rfl _).trans (A_eq0 (E1 m) c 0))
    _ = W0 m c (Proc.devRef .tc main_arg0) := W1_of m c main_arg0 (by decide)
    _ = m ((c : Thread nD τ).loc main_arg0) := rfl

theorem W12_main_arg1 (c : Dev nD) : W12 m c (Proc.devRef .tc main_arg1) = m ((c : Thread nD τ).loc main_arg1) :=
  calc W12 m c (Proc.devRef .tc main_arg1)
    _ = W11 m c (Proc.devRef .tc main_arg1) := W12_of_ne m c main_arg1 (by decide)
    _ = W10 m c (Proc.devRef .tc main_arg1) := W11_of m c main_arg1 (by decide)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl

theorem W12_main_arg2 (c : Dev nD) : W12 m c (Proc.devRef .tc main_arg2) = m ((c : Thread nD τ).loc main_arg2) :=
  calc W12 m c (Proc.devRef .tc main_arg2)
    _ = W11 m c (Proc.devRef .tc main_arg2) := W12_of_ne m c main_arg2 (by decide)
    _ = W10 m c (Proc.devRef .tc main_arg2) := W11_of m c main_arg2 (by decide)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl

theorem W12_main_arg3 (c : Dev nD) : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := W11_of m c main_arg3 (by decide)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := (W2_arr m c 1).trans (((dat0 (E1 m) c).arrAt_in 1 rfl _).trans (A_eq0 (E1 m) c 1))
    _ = W0 m c (Proc.devRef .tc main_arg3) := W1_of m c main_arg3 (by decide)
    _ = m ((c : Thread nD τ).loc main_arg3) := rfl

theorem W12_main_arg4 (c : Dev nD) : W12 m c (Proc.devRef .tc main_arg4) = m ((c : Thread nD τ).loc main_arg4) :=
  calc W12 m c (Proc.devRef .tc main_arg4)
    _ = W11 m c (Proc.devRef .tc main_arg4) := W12_of_ne m c main_arg4 (by decide)
    _ = W10 m c (Proc.devRef .tc main_arg4) := W11_of m c main_arg4 (by decide)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl

theorem W12_main_arg5 (c : Dev nD) : W12 m c (Proc.devRef .tc main_arg5) = m ((c : Thread nD τ).loc main_arg5) :=
  calc W12 m c (Proc.devRef .tc main_arg5)
    _ = W11 m c (Proc.devRef .tc main_arg5) := W12_of_ne m c main_arg5 (by decide)
    _ = W10 m c (Proc.devRef .tc main_arg5) := W11_of m c main_arg5 (by decide)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := (W2_arr m c 3).trans (((dat0 (E1 m) c).arrAt_in 3 rfl _).trans (A_eq0 (E1 m) c 3))
    _ = W0 m c (Proc.devRef .tc main_arg5) := W1_of m c main_arg5 (by decide)
    _ = m ((c : Thread nD τ).loc main_arg5) := rfl

theorem W12_main_arg6 (c : Dev nD) : W12 m c (Proc.devRef .tc main_arg6) = m ((c : Thread nD τ).loc main_arg6) :=
  calc W12 m c (Proc.devRef .tc main_arg6)
    _ = W11 m c (Proc.devRef .tc main_arg6) := W12_of_ne m c main_arg6 (by decide)
    _ = W10 m c (Proc.devRef .tc main_arg6) := W11_of m c main_arg6 (by decide)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-! ## The proof data family -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c

end Cert.KernelIdeal.Hand

end
-- ==== Proof.KI.Regs.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Fold
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The program as segments, and its run

Twelve segments: a host stretch, then a kernel region, six times. The thread state between segments: every unscoped
buffer at the boundary's contents, the generator register at some state, nothing owed. -/

variable (m : (ℓ : Loc nD τ sig) → Buf (Elt F) ℓ) (ρ : Dev nD → PrngReg)

abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W12 m c) ∗ ∃ r, prngReg c r)

set_option backward.isDefEq.respectTransparency.types false in
/-- Region 0 over the thread state: entered from every unscoped buffer at `W1`, left at `W2`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c); unfold Pipeline.ΦA
    iintro ⟨Hp, -, Hr⟩
    isplitl [Hr]; · iexact Hr
    iexact Hp
  hout c := by
    rw [Pipeline.ownSems0_none]
    refine (hout1 (E3 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m) c); unfold Pipeline.ΦA
    iintro ⟨Hp, -, Hr⟩
    isplitl [Hr]; · iexact Hr
    iexact Hp
  hout c := by
    rw [Pipeline.ownSems0_none]
    refine (hout2 (E5 m) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m) c); unfold Pipeline.ΦA
    iintro ⟨Hp, -, Hr⟩
    isplitl [Hr]; · iexact Hr
    iexact Hp
  hout c := by
    rw [Pipeline.ownSems0_none]
    refine (hout3 (E7 m) c).trans ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (E9 m) c); unfold Pipeline.ΦA
    iintro ⟨Hp, -, Hr⟩
    isplitl [Hr]; · iexact Hr
    iexact Hp
  hout c := by
    rw [Pipeline.ownSems0_none]
    refine (hout4 (E9 m) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Regs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The last region as a segment

Its two input windows read ONE array: at entry the array's buffer is split in two halves, one per window; at exit the
halves (unchanged: both windows only read) are joined again. -/

variable (m : (ℓ : Loc nD τ sig) → Buf (Elt F) ℓ) (ρ : Dev nD → PrngReg)

/-- The distinct buffers behind the last region's windows: the scaled encoding and the similarity matrix. -/
theorem arrBufs5_eq (c : Dev nD) (V : (b : Ref sig .tc) → Buf (Elt F) ((c : Thread nD τ).loc b)) :
    (Pipeline.arrBufs (Ix := Unit) (Name := ℕ) (U := UR sig nD τ) (Lvl := ℕ) spec5 c V : sProp 𝕄)
      = iprop((((c : Thread nD τ).loc main_v58) ↦{fullShare} V main_v58) ∗ (((c : Thread nD τ).loc main_v59) ↦{fullShare} V main_v59)) := by
  unfold Pipeline.arrBufs
  exact BI.bigSep_eq_bigSepL_of_eq [main_v58, main_v59] (by decide) (by decide) _

/-- The region's arrays, window by window: the two halves of the encoding's buffer and the matrix's whole. -/
theorem arrays5_eq (V : (c : Dev nD) → (b : Ref sig .tc) → Buf (Elt F) ((c : Thread nD τ).loc b)) (c : Dev nD)
    (Fs : (w : Fin cfg5.W) → Buf (Elt F) ((cfg5.win w).arr.view.loc (c : Thread nD τ))) :
    ((dat5 V c).arrays Fs : sProp 𝕄)
      = iprop((((c : Thread nD τ).loc main_v58) ↦{fullShare.left} Fs 0) ∗ (((c : Thread nD τ).loc main_v58) ↦{fullShare.right} Fs 1)
          ∗ (((c : Thread nD τ).loc main_v59) ↦{fullShare} Fs 2)) := by
  unfold Pipeline.Dat.arrays
  rw [bigSep_W5, (arr_whole5 0).set_eq_univ, (arr_whole5 2).set_eq_univ]
  rfl

set_option backward.isDefEq.respectTransparency.types false in
def reg5 : Pipeline.RegionSeg (pcfgs (F := F)) adm (pdats m) () defs₀ Variants.none L lv 5 where
  win := winFacts₀5
  block_pos := block_pos5
  stage_whole := stage_whole5
  K := PEmpty
  osem k := k.elim
  ho := Pipeline.OwnSemFacts.none _
  hbody c := (body_obligation5 (E11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hs : (unscopedBufs (Ix := Unit) (Name := ℕ) (U := UR sig nD τ) (Lvl := ℕ) c (E11 m c) : sProp 𝕄)
        = iprop(Pipeline.arrBufs spec5 c (E11 m c) ∗ Pipeline.unscopedRest spec5 c (E11 m c)) :=
      Pipeline.unscopedBufs_split₀ (Pipeline.pin (pcfgs (F := F)) adm) 5 winFacts₀5.arr_unscoped c (E11 m c)
    rw [Pipeline.unscopedBufs_held, arrBufs5_eq] at hs
    rw [show ((pdats m 5 c).arrays ((pdats m 5 c).arrAt · 0) : sProp 𝕄) = (dat5 (E11 m) c).arrays ((dat5 (E11 m) c).arrAt · 0) from rfl, arrays5_eq]
    iintro ⟨⟨Hub, Hp, HO⟩, -, -⟩
    ihave H := (BIBase.Entails.of_eq hs) $$ Hub
    icases H with ⟨⟨H58, H59⟩, Hrest⟩
    ihave H58' := (pointsTo_share (PosShare.mem_left_op_right fullShare)).1 $$ H58
    icases H58' with ⟨Hl, Hr⟩
    imodintro
    isplitl [Hl Hr H59]
    · isplitl [Hl]; · iexact Hl
      isplitl [Hr]; · iexact Hr
      iexact H59
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hs : (unscopedBufs (Ix := Unit) (Name := ℕ) (U := UR sig nD τ) (Lvl := ℕ) c (E12 m c) : sProp 𝕄)
        = iprop(Pipeline.arrBufs spec5 c (E12 m c) ∗ Pipeline.unscopedRest spec5 c (E12 m c)) :=
      Pipeline.unscopedBufs_split₀ (Pipeline.pin (pcfgs (F := F)) adm) 5 winFacts₀5.arr_unscoped c (E12 m c)
    rw [Pipeline.unscopedBufs_held, arrBufs5_eq] at hs
    rw [show ((pdats m 5 c).arrays ((pdats m 5 c).arrAt · (Pipeline.pin (pcfgs (F := F)) adm 5).N) : sProp 𝕄)
      = (dat5 (E11 m) c).arrays ((dat5 (E11 m) c).arrAt · cfg5.N) from rfl, arrays5_eq]
    have h0 : (dat5 (E11 m) c).arrAt 0 cfg5.N = E12 m c main_v58 :=
      (((dat5 (E11 m) c).arrAt_in 0 rfl _).trans (A_eq5 (E11 m) c 0)).trans (W12_of_ne m c main_v58 (by decide)).symm
    have h1 : (dat5 (E11 m) c).arrAt 1 cfg5.N = E12 m c main_v58 :=
      (((dat5 (E11 m) c).arrAt_in 1 rfl _).trans (A_eq5 (E11 m) c 1)).trans (W12_of_ne m c main_v58 (by decide)).symm
    have h2 : (dat5 (E11 m) c).arrAt 2 cfg5.N = E12 m c main_v59 := (W12_out m c).symm
    have hrest : (Pipeline.unscopedRest (Ix := Unit) (Name := ℕ) (U := UR sig nD τ) (Lvl := ℕ) spec5 c (E11 m c) : sProp 𝕄)
        = Pipeline.unscopedRest spec5 c (E12 m c) := by
      unfold Pipeline.unscopedRest
      refine BI.bigSep_congr fun b hb => ?_
      have hb' : b ≠ main_v59 := fun e => (Finset.mem_sdiff.mp hb).2 (e ▸ Finset.mem_image.mpr ⟨2, Finset.mem_univ _, rfl⟩)
      rw [show E12 m c b = E11 m c b from W12_of_ne m c b hb']
    rw [h0, h1, h2, hrest]
    iintro ⟨⟨Hl, Hr, H59⟩, HO, HY, Hrest⟩
    ihave H58 := (pointsTo_share (PosShare.mem_left_op_right fullShare)).2 $$ [Hl Hr]
    · isplitl [Hl]; · iexact Hl
      iexact Hr
    imodintro
    isplitl [H58 H59 Hrest HY]
    · isplitl [H58 H59 Hrest]
      · iapply (BIBase.Entails.of_eq hs.symm)
        isplitl [H58 H59]
        · isplitl [H58]; · iexact H58
          iexact H59
        iexact Hrest
      iexact HY
    unfold Pipeline.Dat.owesAt Pipeline.owesWithin
    icases HO with ⟨%W, -, HO⟩; iexists W; iexact HO

end Cert.KernelIdeal.Hand

end
-- ==== Proof.KI.Run.lean ====
import proofs.«146826_j214748365383_2_alg».proof.Proof.Gen.KernelIdeal.Launch
import proofs.«146826_j214748365383_2_alg».proof.Proof.Gen.KernelIdeal.Skeleton
import proofs.«146826_j214748365383_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146826_j214748365383_2_alg».proof.Proof.KI.Reg5
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

Every weakly fair execution terminates, and the final memory holds every unscoped buffer of every core at the last
boundary's contents `W12`; the frame claim and the results' values are read off that. -/

variable (m : (ℓ : Loc nD τ sig) → Buf (Elt F) ℓ) (ρ : Dev nD → PrngReg)

abbrev segs : List (Pipeline.Seg (pcfgs (F := F)) adm (pdats m) () defs₀ Variants.none L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ Variants.none L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c)⟩) (run_all m ρ)

end Cert.KernelIdeal.Hand

end
-- ==== Proof.Spec.lean ====
/-
  The function both programs compute, entry by entry, on the extended reals.

  An encoder of two dense layers with rectifiers, `enc = max (max (x · W1 + b1) 0 · W2 + b2) 0`; the result `allh` is five
  times the encoding (the polynomial filter's coefficients sum to 5 at degree 0 and to 0 at every other degree, so each
  Laplacian power enters with the factor 0, and `0 · y = 0` for every extended real `y`); the similarity matrix is
  `allh · allhᵀ`. Nothing here needs finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The value of the zero word. -/
abbrev zeroW : EReal := Ideal.ofBits .f32 0x00000000#32
/-- The value of the word of 5.0. -/
abbrev fiveW : EReal := Ideal.ofBits .f32 0x40A00000#32

variable (x : (⟨2, ![8192, 256]⟩ : Shape).Idx → EReal) (w1 : (⟨2, ![256, 256]⟩ : Shape).Idx → EReal)
  (b1 : (⟨1, ![256]⟩ : Shape).Idx → EReal) (w2 : (⟨2, ![256, 128]⟩ : Shape).Idx → EReal) (b2 : (⟨1, ![128]⟩ : Shape).Idx → EReal)

/-- The first layer at row `r`, unit `k`. -/
def hidden (r : Fin 8192) (k : Fin 256) : EReal :=
  max ((∑ l : Fin 256, x (ix2 r l) * w1 (ix2 l k)) + b1 (ix1 k)) zeroW

/-- The encoding at row `r`, feature `j`. -/
def enc (r : Fin 8192) (j : Fin 128) : EReal :=
  max ((∑ k : Fin 256, hidden x w1 b1 r k * w2 (ix2 k j)) + b2 (ix1 j)) zeroW

/-- The filtered encoding: five times the encoding. -/
def allh (r : Fin 8192) (j : Fin 128) : EReal := fiveW * enc x w1 b1 w2 b2 r j

/-- The similarity of rows `r` and `s`. -/
def recons (r s : Fin 8192) : EReal := ∑ d : Fin 128, allh x w1 b1 w2 b2 r d * allh x w1 b1 w2 b2 s d

/-- A term entering with the factor zero leaves a sum as it was, whatever the term (`0 · y = 0` on the extended reals,
    at the infinities too). -/
theorem add_zeroW_mul (a y : EReal) : a + zeroW * y = a := by
  show a + Ideal.ofBits .f32 0x00000000#32 * y = a
  rw [Ideal.ofBits_zero_f32, zero_mul, add_zero]

end Cert.Spec

end
-- ==== Proof.LibMatmulTransposedRhs.lean ====
/-
  A rows-by-rows matrix product into a zero accumulator, read at an index on the extended reals.

  For `A : [M, K]` and `B : [N, K]`, both contracted on their last axis, the product accumulated into the zero splat
  is, at `(i, j)`, the finite sum `∑ k, A (i, k) * B (j, k)`: the inner product of row `i` of `A` with row `j` of `B`.
  At the exact values no rounding and no chunk order is left, and the contraction index with its one axis is the
  coordinate `k`. Generic in the three extents and the two operand formats; nothing here needs finiteness.
-/
import Idealize.ShloMosaic.PureOps.Ideal
import Idealize.ShloMosaic.PureOps.Ideal.Laws
import Idealize.ShloMosaic.Lib.ValueIdx

noncomputable section

namespace Cert.LibMatmulTransposedRhs

open Idealize.ShloMosaic Idealize.ShloMosaic.ValueIdx

/-- The product `[M, K] × [N, K]ᵀ` into the zero accumulator at `(i, j)` is `∑ k, A (i, k) * B (j, k)`. -/
theorem matmul_zero_apply {M K N : ℕ} {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ k : Fin K, A (ix2 i k) * B (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.LibMatmulTransposedRhs

end
-- ==== Proof.KIV.Sim.lean ====
import proofs.«146826_j214748365383_2_alg».proof.Proof.KI.Fold
import proofs.«146826_j214748365383_2_alg».proof.Proof.Spec
import proofs.«146826_j214748365383_2_alg».proof.Proof.LibMatmulTransposedRhs
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # What the similarity region leaves: the products of rows of ONE array

Block (I, J) of the output holds rows `2048 I …` against rows `1024 J …` of the same array; the 4 × 8 blocks cover the
matrix. -/

variable (m : (ℓ : Loc nD τ sig) → Buf (Elt Ideal) ℓ)

theorem hz5 : (![0, 0] : Fin 2 → Nat) = fun _ => 0 := funext fun a => by fin_cases a <;> rfl

/-- The similarity block at (r, s): the inner product of row `r` of the first block with row `s` of the second. -/
theorem aat_block (x0 : Vec Ideal S2048x128 .f32) (x1 : Vec Ideal S1024x128 .f32) (r : Fin 2048) (s : Fin 1024) :
    out5_2 (F := Ideal) x0 x1 (ix2 r s) = ∑ d : Fin 128, x0 (ix2 r d) * x1 (ix2 s d) := by
  unfold out5_2
  rw [View.canon_unit_zero hz5]
  simp only [View.ld_unit_zero (S := S2048x128) hz5, View.ld_unit_zero (S := S1024x128) hz5]
  unfold k5_pay1
  refine (Cert.LibMatmulTransposedRhs.matmul_zero_apply (M := 2048) (K := 128) (N := 1024) none _ _ r s).trans ?_
  refine Finset.sum_congr rfl fun d _ => ?_
  rw [shapeCast_self, shapeCast_self]
  rfl

/-- The similarity matrix of an array of rows. -/
def simArr (a : S8192x128.Idx → EReal) : S8192x8192.Idx → EReal :=
  fun i => ∑ d : Fin 128, a (ix2 (i 0) d) * a (ix2 (i 1) d)

theorem idx_facts5 : ∀ t : Fin cfg5.N, win5_0.index t (0 : Fin 2) = t.val / 8 ∧ win5_0.index t (1 : Fin 2) = 0
    ∧ win5_1.index t (0 : Fin 2) = t.val % 8 ∧ win5_1.index t (1 : Fin 2) = 0
    ∧ win5_2.index t (0 : Fin 2) = t.val / 8 ∧ win5_2.index t (1 : Fin 2) = t.val % 8 :=
  (by decide +kernel : ∀ t : Fin grid5.N, _)

theorem flushed5_eq (c : Dev nD) (t : Fin cfg5.N) :
    (dat5 (E11 m) c).flushed 2 t = ((cfg5.win 2).blk t).view.read (Elt Ideal) (simArr (E11 m c main_v58)) := by
  show (cfg5.win 2).cut (grid5.coords t) ((dat5 (E11 m) c).after 2 t) = _
  rw [after5_2]
  obtain ⟨e00, e01, e10, e11, e20, e21⟩ := idx_facts5 t
  refine funext fun (y : S2048x1024.Idx) => ?_
  obtain ⟨r, s, rfl⟩ : ∃ (r : Fin 2048) (s : Fin 1024), y = ix2 r s := ⟨y 0, y 1, eq_ix2 y⟩
  show out5_2 (F := Ideal) (iblk5 (E11 m) c 0 t) (iblk5 (E11 m) c 1 t) (ix2 r s)
    = simArr (E11 m c main_v58) (((cfg5.win 2).blk t).view.emb (ix2 r s))
  rw [aat_block]
  unfold simArr
  have h0 : ∀ d : Fin 128, iblk5 (E11 m) c 0 t (ix2 r d) = E11 m c main_v58 (ix2 ((((cfg5.win 2).blk t).view.emb (ix2 r s)) 0) d) := fun d => by
    show E11 m c main_v58 (((cfg5.win 0).blk t).view.emb (ix2 r d)) = _
    refine congrArg _ (funext fun a => Fin.ext ?_)
    match a with
    | ⟨0, _⟩ => show win5_0.index t (0 : Fin 2) * 2048 + 1 * r.val = win5_2.index t (0 : Fin 2) * 2048 + 1 * r.val; omega
    | ⟨1, _⟩ => show win5_0.index t (1 : Fin 2) * 128 + 1 * d.val = d.val; omega
  have h1 : ∀ d : Fin 128, iblk5 (E11 m) c 1 t (ix2 s d) = E11 m c main_v58 (ix2 ((((cfg5.win 2).blk t).view.emb (ix2 r s)) 1) d) := fun d => by
    show E11 m c main_v58 (((cfg5.win 1).blk t).view.emb (ix2 s d)) = _
    refine congrArg _ (funext fun a => Fin.ext ?_)
    match a with
    | ⟨0, _⟩ => show win5_1.index t (0 : Fin 2) * 1024 + 1 * s.val = win5_2.index t (1 : Fin 2) * 1024 + 1 * s.val; omega
    | ⟨1, _⟩ => show win5_1.index t (1 : Fin 2) * 128 + 1 * d.val = d.val; omega
  simp only [h0, h1]

theorem mem_blk5 (t : Fin cfg5.N) (i : S8192x8192.Idx) :
    i ∈ ((cfg5.win 2).blk t).view.set ↔ ∀ a : Fin 2, win5_2.index t a * S2048x1024.size a ≤ (i a).val ∧ (i a).val < win5_2.index t a * S2048x1024.size a + S2048x1024.size a := by
  show i ∈ ((View.whole main_v59).slice (win5_2.rect t)).set ↔ _
  rw [View.set_slice_whole, Rect.mem_set_unit]
  exact Iff.rfl

theorem cover5 (i : S8192x8192.Idx) : ∃ t : Fin cfg5.N, (cfg5.win 2).flush t = true ∧ i ∈ ((cfg5.win 2).blk t).view.set := by
  have hi0 : (i 0).val < 8192 := (i 0).isLt
  have hi1 : (i 1).val < 8192 := (i 1).isLt
  have hN : cfg5.N = 32 := N_5
  let t : Fin cfg5.N := ⟨(i 0).val / 2048 * 8 + (i 1).val / 1024, by rw [hN]; omega⟩
  obtain ⟨-, -, -, -, e20, e21⟩ := idx_facts5 t
  refine ⟨t, flush5_2 t, ?_⟩
  rw [mem_blk5]
  intro a
  have htv : t.val = (i 0).val / 2048 * 8 + (i 1).val / 1024 := rfl
  match a with
  | ⟨0, _⟩ => show win5_2.index t (0 : Fin 2) * 2048 ≤ (i 0).val ∧ (i 0).val < win5_2.index t (0 : Fin 2) * 2048 + 2048; omega
  | ⟨1, _⟩ => show win5_2.index t (1 : Fin 2) * 1024 ≤ (i 1).val ∧ (i 1).val < win5_2.index t (1 : Fin 2) * 1024 + 1024; omega

/-- The similarity matrix's array after the region. -/
theorem final5 (c : Dev nD) : (dat5 (E11 m) c).arrAt 2 cfg5.N = simArr (E11 m c main_v58) :=
  (dat5 (E11 m) c).arrAt_eq_of_cover 2 _ (fun t _ => flushed5_eq m c t) cover5

end Cert.KernelIdeal.HandV

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibDenseRelu.lean ====
/-
  A dense map with a bias row and a rectifier, as a vector unit spells it, read at an entry on the extended reals.

  For `a : [n, K]`, `w : [K, d]` and a bias row `b : [1, d]`, the product accumulated into the zero splat, plus the row
  broadcast down the n rows, rectified against the splat of the zero word, is at (r, j)
      max( ∑ k, a (r, k) · w (k, j) + b (0, j), 0 ).
  The operands may be in any float format (a change of format is the identity at the exact values); nothing here
  needs finiteness, and the extents are arbitrary.
-/
import Idealize.ShloMosaic.PureOps.Ideal
import Idealize.ShloMosaic.PureOps.Ideal.Laws
import Idealize.ShloMosaic.Lib.ValueIdx
import Idealize.ShloMosaic.Lib.Pipeline.Value
import proofs.«146826_j214748365383_2_alg».proof.Proof.LibMatmulPlain
import proofs.«146826_j214748365383_2_alg».proof.Proof.LibBiasRows

noncomputable section

namespace Cert.LibDenseRelu

open Idealize.ShloMosaic Idealize.ShloMosaic.ValueIdx

/-- The affine part: product into the zero accumulator plus the broadcast bias row (the row cast to its own shape
    first, as the vector unit prints it), at (r, j). -/
theorem vec_dense {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    addf (FloatOps.matmul (DotDims.plain n K d) prec a w (constant ⟨2, ![n, d]⟩ .f32 0x00000000#32))
        (broadcastTo ⟨2, ![n, d]⟩ (shapeCast ⟨2, ![1, d]⟩ b h1) h2) (ix2 r j)
      = (∑ k : Fin K, a (ix2 r k) * w (ix2 k j)) + b (ix2 ⟨0, Nat.one_pos⟩ j) := by
  show FloatOps.matmul (DotDims.plain n K d) prec a w (constant ⟨2, ![n, d]⟩ .f32 0x00000000#32) (ix2 r j)
      + broadcastTo ⟨2, ![n, d]⟩ (shapeCast ⟨2, ![1, d]⟩ b h1) h2 (ix2 r j) = _
  rw [Cert.LibMatmulPlain.matmul_zero_apply, shapeCast_self, Cert.LibBiasRows.row_broadcast]
  rfl

/-- The rectified layer at (r, j). -/
theorem vec_dense_relu {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    maximumf (addf (FloatOps.matmul (DotDims.plain n K d) prec a w (constant ⟨2, ![n, d]⟩ .f32 0x00000000#32))
        (broadcastTo ⟨2, ![n, d]⟩ (shapeCast ⟨2, ![1, d]⟩ b h1) h2))
        (broadcast ⟨2, ![n, d]⟩ (FloatOps.ofBits (F := Ideal) .f32 0x00000000#32)) (ix2 r j)
      = max ((∑ k : Fin K, a (ix2 r k) * w (ix2 k j)) + b (ix2 ⟨0, Nat.one_pos⟩ j)) (Ideal.ofBits .f32 0x00000000#32) := by
  show max (addf (FloatOps.matmul (DotDims.plain n K d) prec a w (constant ⟨2, ![n, d]⟩ .f32 0x00000000#32))
        (broadcastTo ⟨2, ![n, d]⟩ (shapeCast ⟨2, ![1, d]⟩ b h1) h2) (ix2 r j)) _ = _
  rw [vec_dense]
  rfl

end Cert.LibDenseRelu

end
-- ==== Proof.KIV.Enc.lean ====
import proofs.«146826_j214748365383_2_alg».proof.Proof.KI.Fold
import proofs.«146826_j214748365383_2_alg».proof.Proof.Spec
import proofs.«146826_j214748365383_2_alg».proof.Proof.LibDenseRelu
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # What the encoder region leaves: the encoding of every row

The body's block is two dense layers with rectifiers of its input blocks; block `t` of the output holds rows
`1024 t … 1024 t + 1023`, the weights and bias rows are read whole at every point, and the eight blocks cover the array. -/

variable (m : (ℓ : Loc nD τ sig) → Buf (Elt Ideal) ℓ)

theorem hz : (![0, 0] : Fin 2 → Nat) = fun _ => 0 := funext fun a => by fin_cases a <;> rfl

/-- The encoder block at (r, j): two dense layers with rectifiers of the five input blocks. -/
theorem mlp_block (x0 : Vec Ideal S1024x256 .f32) (x1 : Vec Ideal S256x256 .f32) (x2 : Vec Ideal S1x256 .f32)
    (x3 : Vec Ideal S256x128 .f32) (x4 : Vec Ideal S1x128 .f32) (r : Fin 1024) (j : Fin 128) :
    out0_5 (F := Ideal) x0 x1 x2 x3 x4 (ix2 r j)
      = max ((∑ k : Fin 256, max ((∑ l : Fin 256, x0 (ix2 r l) * x1 (ix2 l k)) + x2 (ix2 ⟨0, Nat.one_pos⟩ k)) Cert.Spec.zeroW * x3 (ix2 k j))
          + x4 (ix2 ⟨0, Nat.one_pos⟩ j)) Cert.Spec.zeroW := by
  unfold out0_5
  rw [View.canon_unit_zero hz]
  simp only [View.ld_unit_zero (S := S1024x256) hz, View.ld_unit_zero (S := S256x256) hz, View.ld_unit_zero (S := S1x256) hz,
    View.ld_unit_zero (S := S256x128) hz, View.ld_unit_zero (S := S1x128) hz]
  unfold k0_pay1
  refine (Cert.LibDenseRelu.vec_dense_relu (n := 1024) (K := 256) (d := 128) none _ _ x4 _ _ r j).trans ?_
  refine congrArg (fun z => max (z + x4 (ix2 ⟨0, Nat.one_pos⟩ j)) Cert.Spec.zeroW) (Finset.sum_congr rfl fun k _ => ?_)
  refine congrArg (· * x3 (ix2 k j)) ?_
  exact Cert.LibDenseRelu.vec_dense_relu (n := 1024) (K := 256) (d := 256) none _ _ x2 _ _ r k

/-- The encoding of every row from the arrays as the encoder region finds them (the bias vectors laid out as rows). -/
def encArr (a0 : S8192x256.Idx → EReal) (a1 : S256x256.Idx → EReal) (a2 : S1x256.Idx → EReal) (a3 : S256x128.Idx → EReal)
    (a4 : S1x128.Idx → EReal) : S8192x128.Idx → EReal :=
  fun i => max ((∑ k : Fin 256, max ((∑ l : Fin 256, a0 (ix2 (i 0) l) * a1 (ix2 l k)) + a2 (ix2 ⟨0, Nat.one_pos⟩ k)) Cert.Spec.zeroW * a3 (ix2 k (i 1)))
      + a4 (ix2 ⟨0, Nat.one_pos⟩ (i 1))) Cert.Spec.zeroW

/-- The index maps over the grid: the row windows move with the point, the others stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the encoding of the arrays as the region finds them. -/
theorem flushed0_eq (c : Dev nD) (t : Fin cfg0.N) :
    (dat0 (E1 m) c).flushed 5 t = ((cfg0.win 5).blk t).view.read (Elt Ideal)
      (encArr (E1 m c main_arg0) (E1 m c main_arg3) (E1 m c main_v0) (E1 m c main_arg5) (E1 m c main_v1)) := by
  show (cfg0.win 5).cut (grid0.coords t) ((dat0 (E1 m) c).after 5 t) = _
  rw [after0_5]
  obtain ⟨e00, e01, e10, e11, e20, e21, e30, e31, e40, e41, e50, e51⟩ := idx_facts0 t
  refine funext fun (y : S1024x128.Idx) => ?_
  obtain ⟨r, j, rfl⟩ : ∃ (r : Fin 1024) (j : Fin 128), y = ix2 r j := ⟨y 0, y 1, eq_ix2 y⟩
  show out0_5 (F := Ideal) (iblk0 (E1 m) c 0 t) (iblk0 (E1 m) c 1 t) (iblk0 (E1 m) c 2 t) (iblk0 (E1 m) c 3 t) (iblk0 (E1 m) c 4 t) (ix2 r j)
    = encArr (E1 m c main_arg0) (E1 m c main_arg3) (E1 m c main_v0) (E1 m c main_arg5) (E1 m c main_v1) (((cfg0.win 5).blk t).view.emb (ix2 r j))
  rw [mlp_block]
  unfold encArr
  have hj : (((cfg0.win 5).blk t).view.emb (ix2 r j)) 1 = j := Fin.ext (by
    show win0_5.index t (1 : Fin 2) * 128 + 1 * j.val = j.val; omega)
  have h0 : ∀ l : Fin 256, iblk0 (E1 m) c 0 t (ix2 r l) = E1 m c main_arg0 (ix2 ((((cfg0.win 5).blk t).view.emb (ix2 r j)) 0) l) := fun l => by
    show E1 m c main_arg0 (((cfg0.win 0).blk t).view.emb (ix2 r l)) = _
    refine congrArg _ (funext fun a => Fin.ext ?_)
    match a with
    | ⟨0, _⟩ => show win0_0.index t (0 : Fin 2) * 1024 + 1 * r.val = win0_5.index t (0 : Fin 2) * 1024 + 1 * r.val; omega
    | ⟨1, _⟩ => show win0_0.index t (1 : Fin 2) * 256 + 1 * l.val = l.val; omega
  have h1 : ∀ (l k : Fin 256), iblk0 (E1 m) c 1 t (ix2 l k) = E1 m c main_arg3 (ix2 l k) := fun l k => by
    show E1 m c main_arg3 (((cfg0.win 1).blk t).view.emb (ix2 l k)) = _
    refine congrArg _ (funext fun a => Fin.ext ?_)
    match a with
    | ⟨0, _⟩ => show win0_1.index t (0 : Fin 2) * 256 + 1 * l.val = l.val; omega
    | ⟨1, _⟩ => show win0_1.index t (1 : Fin 2) * 256 + 1 * k.val = k.val; omega
  have h2 : ∀ k : Fin 256, iblk0 (E1 m) c 2 t (ix2 ⟨0, Nat.one_pos⟩ k) = E1 m c main_v0 (ix2 ⟨0, Nat.one_pos⟩ k) := fun k => by
    show E1 m c main_v0 (((cfg0.win 2).blk t).view.emb (ix2 ⟨0, Nat.one_pos⟩ k)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * k.val = k.val; omega
  have h3 : ∀ (k : Fin 256) (q : Fin 128), iblk0 (E1 m) c 3 t (ix2 k q) = E1 m c main_arg5 (ix2 k q) := fun k q => by
    show E1 m c main_arg5 (((cfg0.win 3).blk t).view.emb (ix2 k q)) = _
    refine congrArg _ (funext fun a => Fin.ext ?_)
    match a with
    | ⟨0, _⟩ => show win0_3.index t (0 : Fin 2) * 256 + 1 * k.val = k.val; omega
    | ⟨1, _⟩ => show win0_3.index t (1 : Fin 2) * 128 + 1 * q.val = q.val; omega
  have h4 : ∀ q : Fin 128, iblk0 (E1 m) c 4 t (ix2 ⟨0, Nat.one_pos⟩ q) = E1 m c main_v1 (ix2 ⟨0, Nat.one_pos⟩ q) := fun q => by
    show E1 m c main_v1 (((cfg0.win 4).blk t).view.emb (ix2 ⟨0, Nat.one_pos⟩ q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  simp only [h0, h1, h2, h3, h4, hj]

theorem mem_blk0 (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v2).slice (win0_5.rect t)).set ↔ _
  rw [View.set_slice_whole, Rect.mem_set_unit]
  exact Iff.rfl

/-- The eight blocks cover the array: row `r` is in block `r / 1024`. -/
theorem cover0 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  obtain ⟨-, -, -, -, -, -, -, -, -, -, e50, e51⟩ := idx_facts0 t
  refine ⟨t, flush0_5 t, ?_⟩
  rw [mem_blk0]
  intro a
  have htv : t.val = (i 0).val / 1024 := rfl
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- The encoder's array after the region. -/
theorem final0 (c : Dev nD) : (dat0 (E1 m) c).arrAt 5 cfg0.N
    = encArr (E1 m c main_arg0) (E1 m c main_arg3) (E1 m c main_v0) (E1 m c main_arg5) (E1 m c main_v1) :=
  (dat0 (E1 m) c).arrAt_eq_of_cover 5 _ (fun t _ => flushed0_eq m c t) cover0

end Cert.KernelIdeal.HandV

end
-- ==== Proof.KIV.Host.lean ====
import proofs.«146826_j214748365383_2_alg».proof.Proof.KIV.Enc
import proofs.«146826_j214748365383_2_alg».proof.Proof.LibBiasRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # The filtered encoding through the host stretches

Each of the four stretches after a Laplacian step adds that step's result with the factor zero, so the running total
stays the degree-zero term: five times the encoding. -/

variable (m : (ℓ : Loc nD τ sig) → Buf (Elt Ideal) ℓ)

/-- A stage `a + 0 · y`, entry by entry, is `a`. -/
theorem stage (a y : S8192x128.Idx → EReal) (i : S8192x128.Idx) :
    addf (F := Ideal) (φ := .f32) a (mulf (broadcastInDim S8192x128 ![] bcast_S_S8192x128 (constant (F := Ideal) S_ .f32 0x00000000#32)) y) i = a i :=
  Cert.Spec.add_zeroW_mul (a i) (y i)

theorem st5 (c : Dev nD) (i : S8192x128.Idx) :
    (W11 m c (Proc.devRef .tc main_v58) : S8192x128.Idx → EReal) i = (W10 m c (Proc.devRef .tc main_v54) : S8192x128.Idx → EReal) i := by
  have e : (W11 m c (Proc.devRef .tc main_v58) : S8192x128.Idx → EReal)
      = addf (W10 m c (Proc.devRef .tc main_v54)) (mulf (broadcastInDim S8192x128 ![] bcast_S_S8192x128 (constant (F := Ideal) S_ .f32 0x00000000#32)) (W10 m c (Proc.devRef .tc main_v55))) := by
    dsimp only [W11, hostOps5]; after_results
  rw [e]; exact stage _ _ i

theorem st4 (c : Dev nD) (i : S8192x128.Idx) :
    (W9 m c (Proc.devRef .tc main_v54) : S8192x128.Idx → EReal) i = (W8 m c (Proc.devRef .tc main_v50) : S8192x128.Idx → EReal) i := by
  have e : (W9 m c (Proc.devRef .tc main_v54) : S8192x128.Idx → EReal)
      = addf (W8 m c (Proc.devRef .tc main_v50)) (mulf (broadcastInDim S8192x128 ![] bcast_S_S8192x128 (constant (F := Ideal) S_ .f32 0x00000000#32)) (W8 m c (Proc.devRef .tc main_v51))) := by
    dsimp only [W9, hostOps4]; after_results
  rw [e]; exact stage _ _ i

theorem st3 (c : Dev nD) (i : S8192x128.Idx) :
    (W7 m c (Proc.devRef .tc main_v50) : S8192x128.Idx → EReal) i = (W6 m c (Proc.devRef .tc main_v46) : S8192x128.Idx → EReal) i := by
  have e : (W7 m c (Proc.devRef .tc main_v50) : S8192x128.Idx → EReal)
      = addf (W6 m c (Proc.devRef .tc main_v46)) (mulf (broadcastInDim S8192x128 ![] bcast_S_S8192x128 (constant (F := Ideal) S_ .f32 0x00000000#32)) (W6 m c (Proc.devRef .tc main_v47))) := by
    dsimp only [W7, hostOps3]; after_results
  rw [e]; exact stage _ _ i

theorem st2 (c : Dev nD) (i : S8192x128.Idx) :
    (W5 m c (Proc.devRef .tc main_v46) : S8192x128.Idx → EReal) i = (W4 m c (Proc.devRef .tc main_v42) : S8192x128.Idx → EReal) i := by
  have e : (W5 m c (Proc.devRef .tc main_v46) : S8192x128.Idx → EReal)
      = addf (W4 m c (Proc.devRef .tc main_v42)) (mulf (broadcastInDim S8192x128 ![] bcast_S_S8192x128 (constant (F := Ideal) S_ .f32 0x00000000#32)) (W4 m c (Proc.devRef .tc main_v43))) := by
    dsimp only [W5, hostOps2]; after_results
  rw [e]; exact stage _ _ i

/-- The degree-zero term: five times the encoder's result. -/
theorem st1 (c : Dev nD) (i : S8192x128.Idx) :
    (W3 m c (Proc.devRef .tc main_v42) : S8192x128.Idx → EReal) i = Cert.Spec.fiveW * (W2 m c (Proc.devRef .tc main_v2) : S8192x128.Idx → EReal) i := by
  have e : (W3 m c (Proc.devRef .tc main_v42) : S8192x128.Idx → EReal)
      = mulf (broadcastInDim S8192x128 ![] bcast_S_S8192x128 (constant (F := Ideal) S_ .f32 0x40A00000#32)) (W2 m c (Proc.devRef .tc main_v2)) := by
    dsimp only [W3, hostOps1]; after_results
  rw [e]; rfl

/-- The bias vectors as the encoder region finds them: laid out as rows. -/
theorem row1 (c : Dev nD) : (W1 m c (Proc.devRef .tc main_v0) : S1x256.Idx → EReal)
    = shapeCast S1x256 (m ((c : Thread nD τ).loc main_arg4)) shapeCasts_S256_S1x256 := by
  dsimp only [W1, hostOps0]; after_results; rfl
theorem row2 (c : Dev nD) : (W1 m c (Proc.devRef .tc main_v1) : S1x128.Idx → EReal)
    = shapeCast S1x128 (m ((c : Thread nD τ).loc main_arg6)) shapeCasts_S128_S1x128 := by
  dsimp only [W1, hostOps0]; after_results; rfl

/-- The encoding of every row, at (r, j). -/
theorem encArr_apply (a0 : S8192x256.Idx → EReal) (a1 : S256x256.Idx → EReal) (a2 : S1x256.Idx → EReal) (a3 : S256x128.Idx → EReal)
    (a4 : S1x128.Idx → EReal) (r : Fin 8192) (j : Fin 128) :
    encArr a0 a1 a2 a3 a4 (ix2 r j)
      = max ((∑ k : Fin 256, max ((∑ l : Fin 256, a0 (ix2 r l) * a1 (ix2 l k)) + a2 (ix2 ⟨0, Nat.one_pos⟩ k)) Cert.Spec.zeroW * a3 (ix2 k j))
          + a4 (ix2 ⟨0, Nat.one_pos⟩ j)) Cert.Spec.zeroW := rfl

/-- The filtered encoding the last region reads, entry by entry. -/
theorem allh_arr (c : Dev nD) (r : Fin 8192) (j : Fin 128) :
    (W11 m c (Proc.devRef .tc main_v58) : S8192x128.Idx → EReal) (ix2 r j)
      = Cert.Spec.allh (m ((c : Thread nD τ).loc main_arg0)) (m ((c : Thread nD τ).loc main_arg3)) (m ((c : Thread nD τ).loc main_arg4))
          (m ((c : Thread nD τ).loc main_arg5)) (m ((c : Thread nD τ).loc main_arg6)) r j := by
  have hv2 : (W2 m c (Proc.devRef .tc main_v2) : S8192x128.Idx → EReal) = (dat0 (E1 m) c).arrAt 5 cfg0.N := W2_arr m c 5
  rw [st5, W10_of_ne m c main_v54 (by decide), st4, W8_of_ne m c main_v50 (by decide), st3, W6_of_ne m c main_v46 (by decide), st2,
    W4_of_ne m c main_v42 (by decide), st1, hv2, final0, encArr_apply]
  unfold Cert.Spec.allh Cert.Spec.enc Cert.Spec.hidden
  have a0 : E1 m c main_arg0 = m ((c : Thread nD τ).loc main_arg0) := W1_of m c main_arg0 (by decide)
  have a3 : E1 m c main_arg3 = m ((c : Thread nD τ).loc main_arg3) := W1_of m c main_arg3 (by decide)
  have a5 : E1 m c main_arg5 = m ((c : Thread nD τ).loc main_arg5) := W1_of m c main_arg5 (by decide)
  rw [a0, a3, a5, show E1 m c main_v0 = _ from row1 m c, show E1 m c main_v1 = _ from row2 m c]
  have b1 : ∀ k : Fin 256, shapeCast S1x256 (m ((c : Thread nD τ).loc main_arg4)) shapeCasts_S256_S1x256 (ix2 ⟨0, Nat.one_pos⟩ k)
      = m ((c : Thread nD τ).loc main_arg4) (ix1 k) := fun k => Cert.LibBiasRows.row_of_vector _ _ k
  have b2 : ∀ q : Fin 128, shapeCast S1x128 (m ((c : Thread nD τ).loc main_arg6)) shapeCasts_S128_S1x128 (ix2 ⟨0, Nat.one_pos⟩ q)
      = m ((c : Thread nD τ).loc main_arg6) (ix1 q) := fun q => Cert.LibBiasRows.row_of_vector _ _ q
  simp only [b1, b2]
  try rfl

end Cert.KernelIdeal.HandV

end
-- ==== Proof.RefVal.lean ====
/-
  The reference's two results, read entry by entry: the filtered encoding is `Spec.allh` and the similarity matrix
  `Spec.recons` of the argument arrays. The four Laplacian powers enter the filtered encoding with the factor zero,
  so whatever they hold (they depend on the edge lists) drops out.
-/
import proofs.«146826_j214748365383_2_alg».proof.Proof.RefReadP
import proofs.«146826_j214748365383_2_alg».proof.Proof.Spec

noncomputable section

namespace Cert.ReferenceIdeal.RefValue

open Cert.ReferenceIdeal Cert.ReferenceIdeal.ReadP Idealize.ShloMosaic Idealize.ShloMosaic.ValueIdx

/-- A stage `a + 0 · y` is `a`. -/
theorem zero_stage (a y : Ideal .f32) :
    FloatOps.addf a (FloatOps.mulf (FloatOps.ofBits (F := Ideal) .f32 0x00000000#32) y) = a :=
  Cert.Spec.add_zeroW_mul a y

/-- The filtered encoding is its degree-zero term: the four higher terms carry the factor zero. -/
theorem v92_eq_v20 (x0 : (⟨S8192x256, .f32⟩ : BufTy).Contents (Elt Ideal)) (x1 x2 : (⟨S262144, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (i : S8192x128.Idx) :
    val_main_v92 (F := Ideal) x0 x1 x2 x3 x4 x5 x6 i = val_main_v20 (F := Ideal) x0 x3 x4 x5 x6 i := by
  rw [val_main_v92_apply, val_main_v91_apply, val_main_v90_apply, val_main_cst_18_apply, zero_stage,
    val_main_v74_apply, val_main_v73_apply, val_main_v72_apply, val_main_cst_14_apply, zero_stage,
    val_main_v56_apply, val_main_v55_apply, val_main_v54_apply, val_main_cst_10_apply, zero_stage,
    val_main_v38_apply, val_main_v37_apply, val_main_v36_apply, val_main_cst_6_apply, zero_stage]

/-- The first layer, rectified, at (r, k). -/
theorem v13_eq (x0 : (⟨S8192x256, .f32⟩ : BufTy).Contents (Elt Ideal)) (x3 : (⟨S256x256, .f32⟩ : BufTy).Contents (Elt Ideal))
    (x4 : (⟨S256, .f32⟩ : BufTy).Contents (Elt Ideal)) (r : Fin 8192) (k : Fin 256) :
    val_main_v13 (F := Ideal) x0 x3 x4 (ix2 r k) = Cert.Spec.hidden x0 x3 x4 r k := by
  have el : ∀ l : Fin 256, lidx_main_v9 (ix2 r k) l = ix2 r l := fun l =>
    funext fun a => Fin.ext (by match a with | ⟨0, _⟩ => rfl | ⟨1, _⟩ => rfl)
  have er : ∀ l : Fin 256, ridx_main_v9 (ix2 r k) l = ix2 l k := fun l =>
    funext fun a => Fin.ext (by match a with | ⟨0, _⟩ => rfl | ⟨1, _⟩ => rfl)
  have eb : idx_main_v10 (idx_main_v11 (ix2 r k)) = ix1 k :=
    funext fun a => Fin.ext (by match a with | ⟨0, _⟩ => rfl)
  rw [val_main_v13_apply, val_main_v12_apply, val_main_v9_apply, val_main_v11_apply, val_main_v10_apply,
    val_main_call0_v0_apply, val_main_call0_cst_apply]
  simp only [el, er, eb]
  rfl

/-- The degree-zero term at (r, j) is five times the encoding. -/
theorem v20_eq (x0 : (⟨S8192x256, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (r : Fin 8192) (j : Fin 128) :
    val_main_v20 (F := Ideal) x0 x3 x4 x5 x6 (ix2 r j) = Cert.Spec.allh x0 x3 x4 x5 x6 r j := by
  have el : ∀ k : Fin 256, lidx_main_v14 (ix2 r j) k = ix2 r k := fun k =>
    funext fun a => Fin.ext (by match a with | ⟨0, _⟩ => rfl | ⟨1, _⟩ => rfl)
  have er : ∀ k : Fin 256, ridx_main_v14 (ix2 r j) k = ix2 k j := fun k =>
    funext fun a => Fin.ext (by match a with | ⟨0, _⟩ => rfl | ⟨1, _⟩ => rfl)
  have eb : idx_main_v15 (idx_main_v16 (ix2 r j)) = ix1 j :=
    funext fun a => Fin.ext (by match a with | ⟨0, _⟩ => rfl)
  rw [val_main_v20_apply, val_main_v19_apply, val_main_cst_3_apply, val_main_v18_apply, val_main_v17_apply,
    val_main_v14_apply, val_main_v16_apply, val_main_v15_apply, val_main_call1_v0_apply, val_main_call1_cst_apply]
  simp only [el, er, eb, v13_eq]
  rfl

/-- The reference's filtered encoding, entry by entry. -/
theorem allh_eq (x0 : (⟨S8192x256, .f32⟩ : BufTy).Contents (Elt Ideal)) (x1 x2 : (⟨S262144, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (r : Fin 8192) (j : Fin 128) :
    val_main_v92 (F := Ideal) x0 x1 x2 x3 x4 x5 x6 (ix2 r j) = Cert.Spec.allh x0 x3 x4 x5 x6 r j := by
  rw [v92_eq_v20, v20_eq]

/-- The reference's similarity matrix, entry by entry. -/
theorem recons_eq (x0 : (⟨S8192x256, .f32⟩ : BufTy).Contents (Elt Ideal)) (x1 x2 : (⟨S262144, .i32⟩ : BufTy).Contents (Elt Ideal)) (x3 : (⟨S256x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (r s : Fin 8192) :
    val_main_v94 (F := Ideal) x0 x1 x2 x3 x4 x5 x6 (ix2 r s) = Cert.Spec.recons x0 x3 x4 x5 x6 r s := by
  have el : ∀ d : Fin 128, lidx_main_v94 (ix2 r s) d = ix2 r d := fun d =>
    funext fun a => Fin.ext (by match a with | ⟨0, _⟩ => rfl | ⟨1, _⟩ => rfl)
  have er : ∀ d : Fin 128, idx_main_v93 (ridx_main_v94 (ix2 r s) d) = ix2 s d := fun d =>
    funext fun a => Fin.ext (by match a with | ⟨0, _⟩ => rfl | ⟨1, _⟩ => rfl)
  rw [val_main_v94_apply]
  unfold Cert.Spec.recons
  refine Finset.sum_congr rfl fun d _ => ?_
  rw [val_main_v93_apply, el, er, allh_eq, allh_eq]

end Cert.ReferenceIdeal.RefValue

end
-- ==== Proof.Claims.lean ====
/-
  The five claims. The frames: each program runs to the end and leaves its argument arrays as launched (the two kernel
  programs by their runs over twelve segments, the reference by its run of host operations). The idealized kernel
  program is the kernel program's own text read on the extended reals (no rewrite was applied). On the extended reals
  both programs end with the filtered encoding `5 · enc` and its similarity matrix (Spec.lean): the Laplacian powers
  enter with the factor zero, so neither result depends on the edge lists.
-/
import proofs.«146826_j214748365383_2_alg».proof.Defs
import proofs.«146826_j214748365383_2_alg».proof.Proof.Gen.Kernel
import proofs.«146826_j214748365383_2_alg».proof.Proof.Gen.KernelIdeal
import proofs.«146826_j214748365383_2_alg».proof.Proof.Gen.ReferenceIdeal
import proofs.«146826_j214748365383_2_alg».proof.Proof.Gen.Pre_finite_inputs
import proofs.«146826_j214748365383_2_alg».proof.Proof.K.Run
import proofs.«146826_j214748365383_2_alg».proof.Proof.KI.Run
import proofs.«146826_j214748365383_2_alg».proof.Proof.KIV.Sim
import proofs.«146826_j214748365383_2_alg».proof.Proof.KIV.Host
import proofs.«146826_j214748365383_2_alg».proof.Proof.RefVal

noncomputable section

namespace Cert.Proof.Claims

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

open Cert.KernelIdeal Cert.KernelIdeal.Hand Cert.KernelIdeal.HandV in
/-- The idealized kernel's two results. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v59) = (fun i : S8192x8192.Idx => Cert.Spec.recons (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_v58) = (fun i : S8192x128.Idx => Cert.Spec.allh (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, ?_, (h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c)⟩) (run_all m ρ)
  · refine (h c _ (mem_uc main_v59 (by decide))).trans ((W12_out m c).trans ((final5 m c).trans (funext fun i => ?_)))
    unfold simArr Cert.Spec.recons
    refine Finset.sum_congr rfl fun d _ => ?_
    exact congrArg₂ (· * ·) (allh_arr m c (i 0) d) (allh_arr m c (i 1) d)
  · refine (h c _ (mem_uc main_v58 (by decide))).trans ((W12_of_ne m c main_v58 (by decide)).trans (funext fun i => ?_))
    obtain ⟨r, j, rfl⟩ : ∃ (r : Fin 8192) (j : Fin 128), i = ix2 r j := ⟨i 0, i 1, eq_ix2 i⟩
    exact allh_arr m c r j

open Cert.ReferenceIdeal Cert.ReferenceIdeal.ReadP in
/-- On the extended reals both programs, run from memories agreeing on the arguments, end with equal results. -/
theorem algebraic : Cert.algebraic_KernelIdeal_ReferenceIdeal := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [val_main_v94_eq]
    funext i
    obtain ⟨r, s, rfl⟩ : ∃ (r s : Fin 8192), i = ix2 r s := ⟨i 0, i 1, eq_ix2 i⟩
    rw [Cert.ReferenceIdeal.RefValue.recons_eq, (hagree c).1, (hagree c).2.2.2.1, (hagree c).2.2.2.2.1, (hagree c).2.2.2.2.2.1, (hagree c).2.2.2.2.2.2]
  · rw [val_main_v92_eq]
    funext i
    obtain ⟨r, j, rfl⟩ : ∃ (r : Fin 8192) (j : Fin 128), i = ix2 r j := ⟨i 0, i 1, eq_ix2 i⟩
    rw [Cert.ReferenceIdeal.RefValue.allh_eq, (hagree c).1, (hagree c).2.2.2.1, (hagree c).2.2.2.2.1, (hagree c).2.2.2.2.2.1, (hagree c).2.2.2.2.2.2]

end Cert.Proof.Claims

end
-- ==== Proof.lean ====
/-
  The certificate's five claims assembled: the three frames, the idealization's sanction (no operation was rewritten)
  and the equality of the two programs' results on the extended reals. The frames and the value equality are proved in
  Proof/Claims.lean.
-/
import proofs.«146826_j214748365383_2_alg».proof.Defs
import proofs.«146826_j214748365383_2_alg».proof.Proof.Gen.Kernel
import proofs.«146826_j214748365383_2_alg».proof.Proof.Gen.KernelIdeal
import proofs.«146826_j214748365383_2_alg».proof.Proof.Gen.ReferenceIdeal
import proofs.«146826_j214748365383_2_alg».proof.Proof.Gen.Pre_finite_inputs
import proofs.«146826_j214748365383_2_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
